-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S40x256 : Shape := ⟨2, ![40, 256]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S40x256 : S_.BroadcastsInDim S40x256 (![] : Fin 0 → Fin S40x256.rank)
  reducesTo_S40x256_S_d0_1 : S40x256.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40x256 .f32) (main_arg6 : FVec F S40 .f32) (main_arg7 : FVec F S40x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S40x256 .f32 := Host.absf main_arg5
  let main_cst_6 : FVec F S_ .f32 := constant S_ .f32 0x7F800000#32
  let main_v20 : FVec F S40x256 .f32 := broadcastInDim S40x256 ![] bcast_S_S40x256 main_cst_6
  let main_v21 : IVec S40x256 1 := cmpf .olt main_v19 main_v20
  let main_c_7 : IVec S_ 1 := constantI S_ 1 1#1
  let main_v22 : IVec S_ 1 := (fun x v => Host.reduce IntOp.andi x v reducesTo_S40x256_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S40x256 .f32 := Host.absf main_arg7
  let main_cst_10 : FVec F S_ .f32 := constant S_ .f32 0x7F800000#32
  let main_v30 : FVec F S40x256 .f32 := broadcastInDim S40x256 ![] bcast_S_S40x256 main_cst_10
  let main_v31 : IVec S40x256 1 := cmpf .olt main_v29 main_v30
  let main_c_11 : IVec S_ 1 := constantI S_ 1 1#1
  let main_v32 : IVec S_ 1 := (fun x v => Host.reduce IntOp.andi x v reducesTo_S40x256_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S256x128 .f32) (main_arg3 : FVec F S256 .f32) (main_arg4 : FVec F S256x128 .f32) (main_arg5 : FVec F S40x256 .f32) (main_arg6 : FVec F S40 .f32) (main_arg7 : FVec F S40x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S40x256 : Shape := ⟨2, ![40, 256]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S50000x256 : Shape := ⟨2, ![50000, 256]⟩
abbrev S2000x128 : Shape := ⟨2, ![2000, 128]⟩
abbrev S2000x256 : Shape := ⟨2, ![2000, 256]⟩
abbrev S1x256 : Shape := ⟨2, ![1, 256]⟩
abbrev S800000x256 : Shape := ⟨2, ![800000, 256]⟩
abbrev S50000x40 : Shape := ⟨2, ![50000, 40]⟩
abbrev S2000x40 : Shape := ⟨2, ![2000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 58
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S40x256, .f32⟩
  | .hbm, ⟨6, _⟩ => ⟨S40, .f32⟩
  | .hbm, ⟨7, _⟩ => ⟨S40x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x256, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x256, .f32⟩
  | .hbm, ⟨50, _⟩ => ⟨S_, .f32⟩
  | .hbm, ⟨51, _⟩ => ⟨S50000x256, .f32⟩
  | .hbm, ⟨52, _⟩ => ⟨S800000x1, .i32⟩
  | .hbm, ⟨53, _⟩ => ⟨S50000x256, .f32⟩
  | .hbm, ⟨54, _⟩ => ⟨S50000x1, .f32⟩
  | .hbm, ⟨55, _⟩ => ⟨S50000x256, .f32⟩
  | .hbm, ⟨56, _⟩ => ⟨S50000x256, .f32⟩
  | .hbm, ⟨57, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S256x128, .f32⟩
  | .local _ .vmem, ⟨5, _⟩ => ⟨S256x128, .f32⟩
  | .local _ .vmem, ⟨6, _⟩ => ⟨S256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S40x256, .f32⟩
  | .local _ .vmem, ⟨14, _⟩ => ⟨S40x256, .f32⟩
  | .local _ .vmem, ⟨15, _⟩ => ⟨S40, .f32⟩
  | .local _ .vmem, ⟨16, _⟩ => ⟨S2000x40, .f32⟩
  | .local _ .vmem, ⟨17, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S40x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S40x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S40x256_S40x256_0_0 : ∀ a, (![0, 0] : Fin 2 → Nat) a + S40x256.size a ≤ S40x256.size a
  h_S40x256 : 0 < S40x256.numel
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S256x128_S2000x256_1_1_0_0_n_n_wf : DotDims.WF S2000x128 S256x128 S2000x256 [1] [1] [0] [0] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S40x256_S2000x40_1_1_0_0_n_n_wf : DotDims.WF S2000x256 S40x256 S2000x40 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S40x256.size a ≤ S40x256.size a
  hwx1_2 : ∀ i : grid1.Coords, EltTy.bits .f32 = 32 ∨ (Rect.block (s := S40x256) S40x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S40x256.size a ≤ S40x256.size a
  hwx1_3 : ∀ i : grid1.Coords, EltTy.bits .f32 = 32 ∨ (Rect.block (s := S40x256) S40x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S40.size a ≤ S40.size a
  hwx1_4 : ∀ i : grid1.Coords, EltTy.bits .f32 = 32 ∨ (Rect.block (s := S40) S40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x40.size a ≤ S50000x40.size a
  hwx1_5 : ∀ i : grid1.Coords, EltTy.bits .f32 = 32 ∨ (Rect.block (s := S50000x40) S2000x40.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S256x128_S2000x256_1_1_0_0_n_n : DotDims S2000x128 S256x128 S2000x256 where
  lhsContracting := [1]
  rhsContracting := [1]
  lhsNonContracting := [0]
  rhsNonContracting := [0]
  lhsBatch := []
  rhsBatch := []
  wf := dot_S2000x128_S256x128_S2000x256_1_1_0_0_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S40x256_S2000x40_1_1_0_0_n_n : DotDims S2000x256 S40x256 S2000x40 where
  lhsContracting := [1]
  rhsContracting := [1]
  lhsNonContracting := [0]
  rhsNonContracting := [0]
  lhsBatch := []
  rhsBatch := []
  wf := dot_S2000x256_S40x256_S2000x40_1_1_0_0_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S40x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S40x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S40x256 : Shape := ⟨2, ![40, 256]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x256 : Shape := ⟨2, ![128, 256]⟩
abbrev S50000x256 : Shape := ⟨2, ![50000, 256]⟩
abbrev S1x256 : Shape := ⟨2, ![1, 256]⟩
abbrev S800000x256 : Shape := ⟨2, ![800000, 256]⟩
abbrev S256x40 : Shape := ⟨2, ![256, 40]⟩
abbrev S50000x40 : Shape := ⟨2, ![50000, 40]⟩
abbrev S1x40 : Shape := ⟨2, ![1, 40]⟩

abbrev nBuf : Space → Nat
  | .hbm => 100
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S40x256, .f32⟩
  | .hbm, ⟨6, _⟩ => ⟨S40, .f32⟩
  | .hbm, ⟨7, _⟩ => ⟨S40x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S128x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S1x800000, .i32⟩
  | .hbm, ⟨49, _⟩ => ⟨S800000, .i32⟩
  | .hbm, ⟨50, _⟩ => ⟨S1x800000, .i32⟩
  | .hbm, ⟨51, _⟩ => ⟨S800000, .i32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x256, .f32⟩
  | .hbm, ⟨61, _⟩ => ⟨S_, .f32⟩
  | .hbm, ⟨62, _⟩ => ⟨S50000x256, .f32⟩
  | .hbm, ⟨63, _⟩ => ⟨S800000x1, .i32⟩
  | .hbm, ⟨64, _⟩ => ⟨S50000x256, .f32⟩
  | .hbm, ⟨65, _⟩ => ⟨S_, .f32⟩
  | .hbm, ⟨66, _⟩ => ⟨S800000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x256, .f32⟩
  | .hbm, ⟨76, _⟩ => ⟨S50000x256, .f32⟩
  | .hbm, ⟨77, _⟩ => ⟨S256x40, .f32⟩
  | .hbm, ⟨78, _⟩ => ⟨S50000x40, .f32⟩
  | .hbm, ⟨79, _⟩ => ⟨S1x40, .f32⟩
  | .hbm, ⟨80, _⟩ => ⟨S50000x40, .f32⟩
  | .hbm, ⟨81, _⟩ => ⟨S50000x40, .f32⟩
  | .hbm, ⟨82, _⟩ => ⟨S256x40, .f32⟩
  | .hbm, ⟨83, _⟩ => ⟨S50000x40, .f32⟩
  | .hbm, ⟨84, _⟩ => ⟨S50000x40, .f32⟩
  | .hbm, ⟨85, _⟩ => ⟨S_, .f32⟩
  | .hbm, ⟨86, _⟩ => ⟨S50000, .f32⟩
  | .hbm, ⟨87, _⟩ => ⟨S_, .f32⟩
  | .hbm, ⟨88, _⟩ => ⟨S50000, .f32⟩
  | .hbm, ⟨89, _⟩ => ⟨S50000, .f32⟩
  | .hbm, ⟨90, _⟩ => ⟨S50000x1, .f32⟩
  | .hbm, ⟨91, _⟩ => ⟨S50000x40, .f32⟩
  | .hbm, ⟨92, _⟩ => ⟨S50000x40, .f32⟩
  | .hbm, ⟨93, _⟩ => ⟨S50000x40, .f32⟩
  | .hbm, ⟨94, _⟩ => ⟨S_, .f32⟩
  | .hbm, ⟨95, _⟩ => ⟨S50000, .f32⟩
  | .hbm, ⟨96, _⟩ => ⟨S50000x1, .f32⟩
  | .hbm, ⟨97, _⟩ => ⟨S50000x1, .f32⟩
  | .hbm, ⟨98, _⟩ => ⟨S50000x40, .f32⟩
  | .hbm, ⟨99, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_call1_cst : Ref sig .tc := ⟨.hbm, 85, rfl⟩
abbrev main_call1_v0 : Ref sig .tc := ⟨.hbm, 86, rfl⟩
abbrev main_call1_cst_0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_cst_1 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_v63 : Ref sig .tc := ⟨.hbm, 99, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S40x256_S256x40_1_0 : S40x256.Transposes [1, 0] S256x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x40_S50000x40_1_0_0_1_n_n_wf : DotDims.WF S50000x256 S256x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.RefRun.lean ====
/-
  The reference program's run. Its @main is a straight line of 92 host operations (the two outlined functions,
  relu and log_softmax, stand inline at their call sites, on the buffers their calls name), so every weakly fair
  execution terminates with the result buffer holding the operations' composed value of the argument arrays and
  the arguments unchanged. The composed value is stated through the per-operation stages `val_<buffer>`, each a
  function of @main's arguments: the result is the last stage, `val_main_v63`.
-/
import proofs.«156003_j83769042141372_2_alg».proof.Proof.Gen.ReferenceIdeal
import proofs.«156003_j83769042141372_2_alg».proof.Proof.RefRead
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 92 operations, in order; an operation of an outlined function is written on the buffers of its call. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    unary main_arg2 main_v23 ((transpose S128x256 [1, 0] · transposes_S256x128_S128x256_1_0) : (⟨S256x128, .f32⟩ : BufTy).Contents (Elt F) → (⟨S128x256, .f32⟩ : BufTy).Contents (Elt F)),
    binary main_v22 main_v23 main_v24 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg3 main_v25 (broadcastInDim S1x256 ![1] bcast_S256_S1x256_1 : (⟨S256, .f32⟩ : BufTy).Contents (Elt F) → (⟨S1x256, .f32⟩ : BufTy).Contents (Elt F)),
    unary main_v25 main_v26 (broadcastInDim S50000x256 ![0, 1] bcast_S1x256_S50000x256_0_1 : (⟨S1x256, .f32⟩ : BufTy).Contents (Elt F) → (⟨S50000x256, .f32⟩ : BufTy).Contents (Elt F)),
    binary main_v24 main_v26 main_v27 (addf : (⟨S50000x256, .f32⟩ : BufTy).Contents (Elt F) → (⟨S50000x256, .f32⟩ : BufTy).Contents (Elt F) → (⟨S50000x256, .f32⟩ : BufTy).Contents (Elt F)),
    unary main_arg4 main_v28 ((transpose S128x256 [1, 0] · transposes_S256x128_S128x256_1_0) : (⟨S256x128, .f32⟩ : BufTy).Contents (Elt F) → (⟨S128x256, .f32⟩ : BufTy).Contents (Elt F)),
    binary main_arg0 main_v28 main_v29 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    binary main_v27 main_v29 main_v30 (addf : (⟨S50000x256, .f32⟩ : BufTy).Contents (Elt F) → (⟨S50000x256, .f32⟩ : BufTy).Contents (Elt F) → (⟨S50000x256, .f32⟩ : BufTy).Contents (Elt F)),
    nullary main_call0_cst (constant S_ .f32 0x00000000#32),
    unary main_call0_cst main_call0_v0 (broadcastInDim S50000x256 ![] bcast_S_S50000x256 : (⟨S_, .f32⟩ : BufTy).Contents (Elt F) → (⟨S50000x256, .f32⟩ : BufTy).Contents (Elt F)),
    binary main_v30 main_call0_v0 main_v31 (maximumf : (⟨S50000x256, .f32⟩ : BufTy).Contents (Elt F) → (⟨S50000x256, .f32⟩ : BufTy).Contents (Elt F) → (⟨S50000x256, .f32⟩ : BufTy).Contents (Elt F)),
    unary main_arg1 main_v32 ((extractStridedSlice S1x800000 ![0, 0] · slices_S2x800000_S1x800000_0_0) : (⟨S2x800000, .i32⟩ : BufTy).Contents (Elt F) → (⟨S1x800000, .i32⟩ : BufTy).Contents (Elt F)),
    reshape main_v32 main_v33 rfl shapeCasts_S1x800000_S800000,
    unary main_arg1 main_v34 ((extractStridedSlice S1x800000 ![1, 0] · slices_S2x800000_S1x800000_1_0) : (⟨S2x800000, .i32⟩ : BufTy).Contents (Elt F) → (⟨S1x800000, .i32⟩ : BufTy).Contents (Elt F)),
    reshape main_v34 main_v35 rfl shapeCasts_S1x800000_S800000,
    nullary main_c_4 (constantI S_ 32 0#32),
    unary main_c_4 main_v36 (broadcastInDim S800000 ![] bcast_S_S800000 : (⟨S_, .i32⟩ : BufTy).Contents (Elt F) → (⟨S800000, .i32⟩ : BufTy).Contents (Elt F)),
    binary main_v33 main_v36 main_v37 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v38 (broadcastInDim S800000 ![] bcast_S_S800000 : (⟨S_, .i32⟩ : BufTy).Contents (Elt F) → (⟨S800000, .i32⟩ : BufTy).Contents (Elt F)),
    binary main_v33 main_v38 main_v39 (addi : (⟨S800000, .i32⟩ : BufTy).Contents (Elt F) → (⟨S800000, .i32⟩ : BufTy).Contents (Elt F) → (⟨S800000, .i32⟩ : BufTy).Contents (Elt F)),
    ternary main_v37 main_v39 main_v33 main_v40 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v40 main_v41 (broadcastInDim S800000x1 ![0] bcast_S800000_S800000x1_0 : (⟨S800000, .i32⟩ : BufTy).Contents (Elt F) → (⟨S800000x1, .i32⟩ : BufTy).Contents (Elt F)),
    binary main_v31 main_v41 main_v42 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_6 (constant S_ .f32 0x00000000#32),
    unary main_cst_6 main_v43 (broadcastInDim S50000x256 ![] bcast_S_S50000x256 : (⟨S_, .f32⟩ : BufTy).Contents (Elt F) → (⟨S50000x256, .f32⟩ : BufTy).Contents (Elt F)),
    unary main_v35 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_7 (constant S_ .f32 0x3F800000#32),
    unary main_cst_7 main_v46 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v47 (broadcastInDim S50000 ![] bcast_S_S50000 : (⟨S_, .f32⟩ : BufTy).Contents (Elt F) → (⟨S50000, .f32⟩ : BufTy).Contents (Elt F)),
    unary main_v35 main_v48 (broadcastInDim S800000x1 ![0] bcast_S800000_S800000x1_0 : (⟨S800000, .i32⟩ : BufTy).Contents (Elt F) → (⟨S800000x1, .i32⟩ : BufTy).Contents (Elt F)),
    ternary main_v47 main_v48 main_v46 main_v49 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v50 (broadcastInDim S50000 ![] bcast_S_S50000 : (⟨S_, .f32⟩ : BufTy).Contents (Elt F) → (⟨S50000, .f32⟩ : BufTy).Contents (Elt F)),
    binary main_v49 main_v50 main_v51 (maximumf : (⟨S50000, .f32⟩ : BufTy).Contents (Elt F) → (⟨S50000, .f32⟩ : BufTy).Contents (Elt F) → (⟨S50000, .f32⟩ : BufTy).Contents (Elt F)),
    unary main_v51 main_v52 (broadcastInDim S50000x1 ![0] bcast_S50000_S50000x1_0 : (⟨S50000, .f32⟩ : BufTy).Contents (Elt F) → (⟨S50000x1, .f32⟩ : BufTy).Contents (Elt F)),
    unary main_v52 main_v53 (broadcastInDim S50000x256 ![0, 1] bcast_S50000x1_S50000x256_0_1 : (⟨S50000x1, .f32⟩ : BufTy).Contents (Elt F) → (⟨S50000x256, .f32⟩ : BufTy).Contents (Elt F)),
    binary main_v45 main_v53 main_v54 (Host.divf : (⟨S50000x256, .f32⟩ : BufTy).Contents (Elt F) → (⟨S50000x256, .f32⟩ : BufTy).Contents (Elt F) → (⟨S50000x256, .f32⟩ : BufTy).Contents (Elt F)),
    unary main_arg5 main_v55 ((transpose S256x40 [1, 0] · transposes_S40x256_S256x40_1_0) : (⟨S40x256, .f32⟩ : BufTy).Contents (Elt F) → (⟨S256x40, .f32⟩ : BufTy).Contents (Elt F)),
    binary main_v54 main_v55 main_v56 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    unary main_arg6 main_v57 (broadcastInDim S1x40 ![1] bcast_S40_S1x40_1 : (⟨S40, .f32⟩ : BufTy).Contents (Elt F) → (⟨S1x40, .f32⟩ : BufTy).Contents (Elt F)),
    unary main_v57 main_v58 (broadcastInDim S50000x40 ![0, 1] bcast_S1x40_S50000x40_0_1 : (⟨S1x40, .f32⟩ : BufTy).Contents (Elt F) → (⟨S50000x40, .f32⟩ : BufTy).Contents (Elt F)),
    binary main_v56 main_v58 main_v59 (addf : (⟨S50000x40, .f32⟩ : BufTy).Contents (Elt F) → (⟨S50000x40, .f32⟩ : BufTy).Contents (Elt F) → (⟨S50000x40, .f32⟩ : BufTy).Contents (Elt F)),
    unary main_arg7 main_v60 ((transpose S256x40 [1, 0] · transposes_S40x256_S256x40_1_0) : (⟨S40x256, .f32⟩ : BufTy).Contents (Elt F) → (⟨S256x40, .f32⟩ : BufTy).Contents (Elt F)),
    binary main_v31 main_v60 main_v61 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    binary main_v59 main_v61 main_v62 (addf : (⟨S50000x40, .f32⟩ : BufTy).Contents (Elt F) → (⟨S50000x40, .f32⟩ : BufTy).Contents (Elt F) → (⟨S50000x40, .f32⟩ : BufTy).Contents (Elt F)),
    nullary main_call1_cst (constant S_ .f32 0xFF800000#32),
    binary main_v62 main_call1_cst main_call1_v0 (fun x v => Host.reduce FloatOps.maximumf x v reducesTo_S50000x40_S50000_d1 h_S_ : (⟨S50000x40, .f32⟩ : BufTy).Contents (Elt F) → (⟨S_, .f32⟩ : BufTy).Contents (Elt F) → (⟨S50000, .f32⟩ : BufTy).Contents (Elt F)),
    nullary main_call1_cst_0 (constant S_ .f32 0xFF800000#32),
    unary main_call1_cst_0 main_call1_v1 (broadcastInDim S50000 ![] bcast_S_S50000 : (⟨S_, .f32⟩ : BufTy).Contents (Elt F) → (⟨S50000, .f32⟩ : BufTy).Contents (Elt F)),
    binary main_call1_v1 main_call1_v0 main_call1_v2 (maximumf : (⟨S50000, .f32⟩ : BufTy).Contents (Elt F) → (⟨S50000, .f32⟩ : BufTy).Contents (Elt F) → (⟨S50000, .f32⟩ : BufTy).Contents (Elt F)),
    unary main_call1_v2 main_call1_v3 (broadcastInDim S50000x1 ![0] bcast_S50000_S50000x1_0 : (⟨S50000, .f32⟩ : BufTy).Contents (Elt F) → (⟨S50000x1, .f32⟩ : BufTy).Contents (Elt F)),
    unary main_call1_v3 main_call1_v4 (broadcastInDim S50000x40 ![0, 1] bcast_S50000x1_S50000x40_0_1 : (⟨S50000x1, .f32⟩ : BufTy).Contents (Elt F) → (⟨S50000x40, .f32⟩ : BufTy).Contents (Elt F)),
    binary main_v62 main_call1_v4 main_call1_v5 (subf : (⟨S50000x40, .f32⟩ : BufTy).Contents (Elt F) → (⟨S50000x40, .f32⟩ : BufTy).Contents (Elt F) → (⟨S50000x40, .f32⟩ : BufTy).Contents (Elt F)),
    unary main_call1_v5 main_call1_v6 (Host.exp : (⟨S50000x40, .f32⟩ : BufTy).Contents (Elt F) → (⟨S50000x40, .f32⟩ : BufTy).Contents (Elt F)),
    nullary main_call1_cst_1 (constant S_ .f32 0x00000000#32),
    binary main_call1_v6 main_call1_cst_1 main_call1_v7 (fun x v => Host.reduceAdd x v reducesTo_S50000x40_S50000_d1 h_S_ : (⟨S50000x40, .f32⟩ : BufTy).Contents (Elt F) → (⟨S_, .f32⟩ : BufTy).Contents (Elt F) → (⟨S50000, .f32⟩ : BufTy).Contents (Elt F)),
    unary main_call1_v7 main_call1_v8 (broadcastInDim S50000x1 ![0] bcast_S50000_S50000x1_0 : (⟨S50000, .f32⟩ : BufTy).Contents (Elt F) → (⟨S50000x1, .f32⟩ : BufTy).Contents (Elt F)),
    unary main_call1_v8 main_call1_v9 (Host.log : (⟨S50000x1, .f32⟩ : BufTy).Contents (Elt F) → (⟨S50000x1, .f32⟩ : BufTy).Contents (Elt F)),
    unary main_call1_v9 main_call1_v10 (broadcastInDim S50000x40 ![0, 1] bcast_S50000x1_S50000x40_0_1 : (⟨S50000x1, .f32⟩ : BufTy).Contents (Elt F) → (⟨S50000x40, .f32⟩ : BufTy).Contents (Elt F)),
    binary main_call1_v5 main_call1_v10 main_v63 (subf : (⟨S50000x40, .f32⟩ : BufTy).Contents (Elt F) → (⟨S50000x40, .f32⟩ : BufTy).Contents (Elt F) → (⟨S50000x40, .f32⟩ : BufTy).Contents (Elt F)) ]

/-- The same operations with those of the two outlined functions written as the program prints them, over the typed
    references of each call's buffer record: @main is their sequence by unfolding. -/
abbrev opsT : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    unary main_arg2 main_v23 ((transpose S128x256 [1, 0] · transposes_S256x128_S128x256_1_0) : (⟨S256x128, .f32⟩ : BufTy).Contents (Elt F) → (⟨S128x256, .f32⟩ : BufTy).Contents (Elt F)),
    binary main_v22 main_v23 main_v24 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg3 main_v25 (broadcastInDim S1x256 ![1] bcast_S256_S1x256_1 : (⟨S256, .f32⟩ : BufTy).Contents (Elt F) → (⟨S1x256, .f32⟩ : BufTy).Contents (Elt F)),
    unary main_v25 main_v26 (broadcastInDim S50000x256 ![0, 1] bcast_S1x256_S50000x256_0_1 : (⟨S1x256, .f32⟩ : BufTy).Contents (Elt F) → (⟨S50000x256, .f32⟩ : BufTy).Contents (Elt F)),
    binary main_v24 main_v26 main_v27 (addf : (⟨S50000x256, .f32⟩ : BufTy).Contents (Elt F) → (⟨S50000x256, .f32⟩ : BufTy).Contents (Elt F) → (⟨S50000x256, .f32⟩ : BufTy).Contents (Elt F)),
    unary main_arg4 main_v28 ((transpose S128x256 [1, 0] · transposes_S256x128_S128x256_1_0) : (⟨S256x128, .f32⟩ : BufTy).Contents (Elt F) → (⟨S128x256, .f32⟩ : BufTy).Contents (Elt F)),
    binary main_arg0 main_v28 main_v29 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    binary main_v27 main_v29 main_v30 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v30) (TRef.of (T := ⟨S50000x256, .f32⟩) main_call0_v0) (TRef.of (T := ⟨S50000x256, .f32⟩) main_v31) maximumf,
    unary main_arg1 main_v32 ((extractStridedSlice S1x800000 ![0, 0] · slices_S2x800000_S1x800000_0_0) : (⟨S2x800000, .i32⟩ : BufTy).Contents (Elt F) → (⟨S1x800000, .i32⟩ : BufTy).Contents (Elt F)),
    reshape main_v32 main_v33 rfl shapeCasts_S1x800000_S800000,
    unary main_arg1 main_v34 ((extractStridedSlice S1x800000 ![1, 0] · slices_S2x800000_S1x800000_1_0) : (⟨S2x800000, .i32⟩ : BufTy).Contents (Elt F) → (⟨S1x800000, .i32⟩ : BufTy).Contents (Elt F)),
    reshape main_v34 main_v35 rfl shapeCasts_S1x800000_S800000,
    nullary main_c_4 (constantI S_ 32 0#32),
    unary main_c_4 main_v36 (broadcastInDim S800000 ![] bcast_S_S800000 : (⟨S_, .i32⟩ : BufTy).Contents (Elt F) → (⟨S800000, .i32⟩ : BufTy).Contents (Elt F)),
    binary main_v33 main_v36 main_v37 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v38 (broadcastInDim S800000 ![] bcast_S_S800000 : (⟨S_, .i32⟩ : BufTy).Contents (Elt F) → (⟨S800000, .i32⟩ : BufTy).Contents (Elt F)),
    binary main_v33 main_v38 main_v39 (addi : (⟨S800000, .i32⟩ : BufTy).Contents (Elt F) → (⟨S800000, .i32⟩ : BufTy).Contents (Elt F) → (⟨S800000, .i32⟩ : BufTy).Contents (Elt F)),
    ternary main_v37 main_v39 main_v33 main_v40 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v40 main_v41 (broadcastInDim S800000x1 ![0] bcast_S800000_S800000x1_0 : (⟨S800000, .i32⟩ : BufTy).Contents (Elt F) → (⟨S800000x1, .i32⟩ : BufTy).Contents (Elt F)),
    binary main_v31 main_v41 main_v42 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_6 (constant S_ .f32 0x00000000#32),
    unary main_cst_6 main_v43 (broadcastInDim S50000x256 ![] bcast_S_S50000x256 : (⟨S_, .f32⟩ : BufTy).Contents (Elt F) → (⟨S50000x256, .f32⟩ : BufTy).Contents (Elt F)),
    unary main_v35 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_7 (constant S_ .f32 0x3F800000#32),
    unary main_cst_7 main_v46 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v47 (broadcastInDim S50000 ![] bcast_S_S50000 : (⟨S_, .f32⟩ : BufTy).Contents (Elt F) → (⟨S50000, .f32⟩ : BufTy).Contents (Elt F)),
    unary main_v35 main_v48 (broadcastInDim S800000x1 ![0] bcast_S800000_S800000x1_0 : (⟨S800000, .i32⟩ : BufTy).Contents (Elt F) → (⟨S800000x1, .i32⟩ : BufTy).Contents (Elt F)),
    ternary main_v47 main_v48 main_v46 main_v49 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v50 (broadcastInDim S50000 ![] bcast_S_S50000 : (⟨S_, .f32⟩ : BufTy).Contents (Elt F) → (⟨S50000, .f32⟩ : BufTy).Contents (Elt F)),
    binary main_v49 main_v50 main_v51 (maximumf : (⟨S50000, .f32⟩ : BufTy).Contents (Elt F) → (⟨S50000, .f32⟩ : BufTy).Contents (Elt F) → (⟨S50000, .f32⟩ : BufTy).Contents (Elt F)),
    unary main_v51 main_v52 (broadcastInDim S50000x1 ![0] bcast_S50000_S50000x1_0 : (⟨S50000, .f32⟩ : BufTy).Contents (Elt F) → (⟨S50000x1, .f32⟩ : BufTy).Contents (Elt F)),
    unary main_v52 main_v53 (broadcastInDim S50000x256 ![0, 1] bcast_S50000x1_S50000x256_0_1 : (⟨S50000x1, .f32⟩ : BufTy).Contents (Elt F) → (⟨S50000x256, .f32⟩ : BufTy).Contents (Elt F)),
    binary main_v45 main_v53 main_v54 (Host.divf : (⟨S50000x256, .f32⟩ : BufTy).Contents (Elt F) → (⟨S50000x256, .f32⟩ : BufTy).Contents (Elt F) → (⟨S50000x256, .f32⟩ : BufTy).Contents (Elt F)),
    unary main_arg5 main_v55 ((transpose S256x40 [1, 0] · transposes_S40x256_S256x40_1_0) : (⟨S40x256, .f32⟩ : BufTy).Contents (Elt F) → (⟨S256x40, .f32⟩ : BufTy).Contents (Elt F)),
    binary main_v54 main_v55 main_v56 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    unary main_arg6 main_v57 (broadcastInDim S1x40 ![1] bcast_S40_S1x40_1 : (⟨S40, .f32⟩ : BufTy).Contents (Elt F) → (⟨S1x40, .f32⟩ : BufTy).Contents (Elt F)),
    unary main_v57 main_v58 (broadcastInDim S50000x40 ![0, 1] bcast_S1x40_S50000x40_0_1 : (⟨S1x40, .f32⟩ : BufTy).Contents (Elt F) → (⟨S50000x40, .f32⟩ : BufTy).Contents (Elt F)),
    binary main_v56 main_v58 main_v59 (addf : (⟨S50000x40, .f32⟩ : BufTy).Contents (Elt F) → (⟨S50000x40, .f32⟩ : BufTy).Contents (Elt F) → (⟨S50000x40, .f32⟩ : BufTy).Contents (Elt F)),
    unary main_arg7 main_v60 ((transpose S256x40 [1, 0] · transposes_S40x256_S256x40_1_0) : (⟨S40x256, .f32⟩ : BufTy).Contents (Elt F) → (⟨S256x40, .f32⟩ : BufTy).Contents (Elt F)),
    binary main_v31 main_v60 main_v61 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    binary main_v59 main_v61 main_v62 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call1_cst) (constant S_ .f32 0xFF800000#32),
    TRef.binary (TRef.of (T := ⟨S50000x40, .f32⟩) main_v62) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v62) (TRef.of (T := ⟨S50000x40, .f32⟩) main_call1_v4) (TRef.of (T := ⟨S50000x40, .f32⟩) main_call1_v5) subf,
    TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v63) subf ]

set_option maxRecDepth 8192 in
set_option maxHeartbeats 4000000 in
theorem main_eqT (c : Dev nD) : main (F := F) c = seq opsT := rfl
/-! An operation over typed references of literal buffers is the plain operation on those buffers: the transport of
    contents along `buffer's type = value's type` is the identity when the two types are one. -/
theorem op_0 (v : (⟨S_, .f32⟩ : BufTy).Contents (Elt F)) : (TRef.nullary (TRef.of (T := ⟨S_, .f32⟩) main_call0_cst) v : HloOp τ sig (Elt F)) = nullary main_call0_cst v := rfl
theorem op_1 (f : (⟨S_, .f32⟩ : BufTy).Contents (Elt F) → (⟨S50000x256, .f32⟩ : BufTy).Contents (Elt F)) : (TRef.unary (TRef.of (T := ⟨S_, .f32⟩) main_call0_cst) (TRef.of (T := ⟨S50000x256, .f32⟩) main_call0_v0) f : HloOp τ sig (Elt F)) = unary main_call0_cst main_call0_v0 f := rfl
theorem op_2 (f : (⟨S50000x256, .f32⟩ : BufTy).Contents (Elt F) → (⟨S50000x256, .f32⟩ : BufTy).Contents (Elt F) → (⟨S50000x256, .f32⟩ : BufTy).Contents (Elt F)) : (TRef.binary (TRef.of (T := ⟨S50000x256, .f32⟩) main_v30) (TRef.of (T := ⟨S50000x256, .f32⟩) main_call0_v0) (TRef.of (T := ⟨S50000x256, .f32⟩) main_v31) f : HloOp τ sig (Elt F)) = binary main_v30 main_call0_v0 main_v31 f := rfl
theorem op_3 (v : (⟨S_, .f32⟩ : BufTy).Contents (Elt F)) : (TRef.nullary (TRef.of (T := ⟨S_, .f32⟩) main_call1_cst) v : HloOp τ sig (Elt F)) = nullary main_call1_cst v := rfl
theorem op_4 (f : (⟨S50000x40, .f32⟩ : BufTy).Contents (Elt F) → (⟨S_, .f32⟩ : BufTy).Contents (Elt F) → (⟨S50000, .f32⟩ : BufTy).Contents (Elt F)) : (TRef.binary (TRef.of (T := ⟨S50000x40, .f32⟩) main_v62) (TRef.of (T := ⟨S_, .f32⟩) main_call1_cst) (TRef.of (T := ⟨S50000, .f32⟩) main_call1_v0) f : HloOp τ sig (Elt F)) = binary main_v62 main_call1_cst main_call1_v0 f := rfl
theorem op_5 (v : (⟨S_, .f32⟩ : BufTy).Contents (Elt F)) : (TRef.nullary (TRef.of (T := ⟨S_, .f32⟩) main_call1_cst_0) v : HloOp τ sig (Elt F)) = nullary main_call1_cst_0 v := rfl
theorem op_6 (f : (⟨S_, .f32⟩ : BufTy).Contents (Elt F) → (⟨S50000, .f32⟩ : BufTy).Contents (Elt F)) : (TRef.unary (TRef.of (T := ⟨S_, .f32⟩) main_call1_cst_0) (TRef.of (T := ⟨S50000, .f32⟩) main_call1_v1) f : HloOp τ sig (Elt F)) = unary main_call1_cst_0 main_call1_v1 f := rfl
theorem op_7 (f : (⟨S50000, .f32⟩ : BufTy).Contents (Elt F) → (⟨S50000, .f32⟩ : BufTy).Contents (Elt F) → (⟨S50000, .f32⟩ : BufTy).Contents (Elt F)) : (TRef.binary (TRef.of (T := ⟨S50000, .f32⟩) main_call1_v1) (TRef.of (T := ⟨S50000, .f32⟩) main_call1_v0) (TRef.of (T := ⟨S50000, .f32⟩) main_call1_v2) f : HloOp τ sig (Elt F)) = binary main_call1_v1 main_call1_v0 main_call1_v2 f := rfl
theorem op_8 (f : (⟨S50000, .f32⟩ : BufTy).Contents (Elt F) → (⟨S50000x1, .f32⟩ : BufTy).Contents (Elt F)) : (TRef.unary (TRef.of (T := ⟨S50000, .f32⟩) main_call1_v2) (TRef.of (T := ⟨S50000x1, .f32⟩) main_call1_v3) f : HloOp τ sig (Elt F)) = unary main_call1_v2 main_call1_v3 f := rfl
theorem op_9 (f : (⟨S50000x1, .f32⟩ : BufTy).Contents (Elt F) → (⟨S50000x40, .f32⟩ : BufTy).Contents (Elt F)) : (TRef.unary (TRef.of (T := ⟨S50000x1, .f32⟩) main_call1_v3) (TRef.of (T := ⟨S50000x40, .f32⟩) main_call1_v4) f : HloOp τ sig (Elt F)) = unary main_call1_v3 main_call1_v4 f := rfl
theorem op_10 (f : (⟨S50000x40, .f32⟩ : BufTy).Contents (Elt F) → (⟨S50000x40, .f32⟩ : BufTy).Contents (Elt F) → (⟨S50000x40, .f32⟩ : BufTy).Contents (Elt F)) : (TRef.binary (TRef.of (T := ⟨S50000x40, .f32⟩) main_v62) (TRef.of (T := ⟨S50000x40, .f32⟩) main_call1_v4) (TRef.of (T := ⟨S50000x40, .f32⟩) main_call1_v5) f : HloOp τ sig (Elt F)) = binary main_v62 main_call1_v4 main_call1_v5 f := rfl
theorem op_11 (f : (⟨S50000x40, .f32⟩ : BufTy).Contents (Elt F) → (⟨S50000x40, .f32⟩ : BufTy).Contents (Elt F)) : (TRef.unary (TRef.of (T := ⟨S50000x40, .f32⟩) main_call1_v5) (TRef.of (T := ⟨S50000x40, .f32⟩) main_call1_v6) f : HloOp τ sig (Elt F)) = unary main_call1_v5 main_call1_v6 f := rfl
theorem op_12 (v : (⟨S_, .f32⟩ : BufTy).Contents (Elt F)) : (TRef.nullary (TRef.of (T := ⟨S_, .f32⟩) main_call1_cst_1) v : HloOp τ sig (Elt F)) = nullary main_call1_cst_1 v := rfl
theorem op_13 (f : (⟨S50000x40, .f32⟩ : BufTy).Contents (Elt F) → (⟨S_, .f32⟩ : BufTy).Contents (Elt F) → (⟨S50000, .f32⟩ : BufTy).Contents (Elt F)) : (TRef.binary (TRef.of (T := ⟨S50000x40, .f32⟩) main_call1_v6) (TRef.of (T := ⟨S_, .f32⟩) main_call1_cst_1) (TRef.of (T := ⟨S50000, .f32⟩) main_call1_v7) f : HloOp τ sig (Elt F)) = binary main_call1_v6 main_call1_cst_1 main_call1_v7 f := rfl
theorem op_14 (f : (⟨S50000, .f32⟩ : BufTy).Contents (Elt F) → (⟨S50000x1, .f32⟩ : BufTy).Contents (Elt F)) : (TRef.unary (TRef.of (T := ⟨S50000, .f32⟩) main_call1_v7) (TRef.of (T := ⟨S50000x1, .f32⟩) main_call1_v8) f : HloOp τ sig (Elt F)) = unary main_call1_v7 main_call1_v8 f := rfl
theorem op_15 (f : (⟨S50000x1, .f32⟩ : BufTy).Contents (Elt F) → (⟨S50000x1, .f32⟩ : BufTy).Contents (Elt F)) : (TRef.unary (TRef.of (T := ⟨S50000x1, .f32⟩) main_call1_v8) (TRef.of (T := ⟨S50000x1, .f32⟩) main_call1_v9) f : HloOp τ sig (Elt F)) = unary main_call1_v8 main_call1_v9 f := rfl
theorem op_16 (f : (⟨S50000x1, .f32⟩ : BufTy).Contents (Elt F) → (⟨S50000x40, .f32⟩ : BufTy).Contents (Elt F)) : (TRef.unary (TRef.of (T := ⟨S50000x1, .f32⟩) main_call1_v9) (TRef.of (T := ⟨S50000x40, .f32⟩) main_call1_v10) f : HloOp τ sig (Elt F)) = unary main_call1_v9 main_call1_v10 f := rfl
theorem op_17 (f : (⟨S50000x40, .f32⟩ : BufTy).Contents (Elt F) → (⟨S50000x40, .f32⟩ : BufTy).Contents (Elt F) → (⟨S50000x40, .f32⟩ : BufTy).Contents (Elt F)) : (TRef.binary (TRef.of (T := ⟨S50000x40, .f32⟩) main_call1_v5) (TRef.of (T := ⟨S50000x40, .f32⟩) main_call1_v10) (TRef.of (T := ⟨S50000x40, .f32⟩) main_v63) f : HloOp τ sig (Elt F)) = binary main_call1_v5 main_call1_v10 main_v63 f := rfl
theorem opsT_eq : (opsT : List (HloOp τ sig (Elt F))) = ops := by
  unfold opsT ops
  simp only [op_0, op_1, op_2, op_3, op_4, op_5, op_6, op_7, op_8, op_9, op_10, op_11, op_12, op_13, op_14, op_15, op_16, op_17]
theorem main_eq (c : Dev nD) : main (F := F) c = seq ops := (main_eqT c).trans (congrArg seq opsT_eq)
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 16384 in
set_option maxHeartbeats 36800000 in
/-- From any memory with zero counters every weakly fair execution of the reference terminates with its result at the
    last stage's value of the argument arrays, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = Cert.ReferenceIdeal.ReadP.val_main_v63 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v63).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RefRun

end
-- ==== Proof.Spec.lean ====
/-
  The mathematics both programs compute, over the extended reals.

  A two-layer mean-aggregating graph network. For a node `r` and an output feature `q` a layer's linear part is
      lin r q = Σ_k mean[r,k]·Wl[q,k]  +  Σ_k x[r,k]·Wr[q,k]  +  b[q],
  the first layer's output is `max (lin r q) 0`, and the second layer's is the row-wise log-softmax of its `lin`:
      out[r,q] = (z_q − m) − log Σ_j exp (z_j − m),   z_j = lin r j,   m = max over the row (from −∞).
  The neighbour mean is the scattered sum of a row divided by `max deg 1`; one program multiplies by the
  reciprocal `1 / max deg 1`, the other divides — the same extended real, because `max deg 1` is never zero.
  Sums are commutative and associative on the extended reals without any finiteness, so the order in which the
  two products and the bias are added does not matter.
-/
import Idealize.ShloMosaic.PureOps.Ideal
import Idealize.ShloMosaic.PureOps.Ideal.Laws
import Idealize.ShloMosaic.Lib.ValueIdx
import Idealize.ShloMosaic.Lib.IdealHost

noncomputable section

namespace Cert.Sage

open Idealize.ShloMosaic Idealize.ShloMosaic.ValueIdx

/-- Arrays of extended reals over two- and one-axis shapes of literal extents. -/
abbrev Arr2 (n0 n1 : Nat) := (⟨2, ![n0, n1]⟩ : Shape).Idx → EReal
abbrev Arr1 (n : Nat) := (⟨1, ![n]⟩ : Shape).Idx → EReal

/-- The two coordinates of a two-axis index, at their literal extents. -/
abbrev row {n0 n1 : Nat} (i : (⟨2, ![n0, n1]⟩ : Shape).Idx) : Fin n0 := ⟨(i 0).val, idx2_lt0 i⟩
abbrev col {n0 n1 : Nat} (i : (⟨2, ![n0, n1]⟩ : Shape).Idx) : Fin n1 := ⟨(i 1).val, idx2_lt1 i⟩

/-- The zero and the minus infinity the programs spell as f32 words. -/
abbrev zero32 : EReal := Ideal.ofBits .f32 0x00000000#32
abbrev ninf32 : EReal := Ideal.ofBits .f32 0xFF800000#32

/-- A layer's linear part at node `r`, output feature `q`: the aggregated mean against `Wl`, the node's own row
    against `Wr`, both contracted over the input features, plus the bias. -/
def lin {N K Q : Nat} (mean x : Arr2 N K) (Wl Wr : Arr2 Q K) (b : Arr1 Q) (r : Fin N) (q : Fin Q) : EReal :=
  (∑ k : Fin K, mean (ix2 r k) * Wl (ix2 q k)) + (∑ k : Fin K, x (ix2 r k) * Wr (ix2 q k)) + b (ix1 q)

/-- `lin` at a node reads only that node's rows of `mean` and `x`: a block of rows gives the same value as the
    whole arrays at the node the block's row stands for. -/
theorem lin_congr {N N' K Q : Nat} (mean x : Arr2 N K) (mean' x' : Arr2 N' K) (Wl Wr : Arr2 Q K) (b : Arr1 Q)
    (r : Fin N) (r' : Fin N') (q : Fin Q)
    (hm : ∀ k : Fin K, mean' (ix2 r' k) = mean (ix2 r k)) (hx : ∀ k : Fin K, x' (ix2 r' k) = x (ix2 r k)) :
    lin mean' x' Wl Wr b r' q = lin mean x Wl Wr b r q := by
  unfold lin
  simp only [hm, hx]

/-- The first layer: the linear part clamped below at zero. -/
def layer1 {N K Q : Nat} (mean x : Arr2 N K) (Wl Wr : Arr2 Q K) (b : Arr1 Q) : Arr2 N Q :=
  fun i => max (lin mean x Wl Wr b (row i) (col i)) zero32

/-- A row's maximum, folded from minus infinity. -/
def rowMax {Q : Nat} (z : Fin Q → EReal) : EReal := (Finset.univ : Finset (Fin Q)).fold max ninf32 z

/-- The log-softmax of a row at one entry. -/
def logSoftmax {Q : Nat} (z : Fin Q → EReal) (j : Fin Q) : EReal :=
  (z j - rowMax z) - Ideal.log (∑ k : Fin Q, Ideal.exp (z k - rowMax z))

/-- The second layer: the row-wise log-softmax of the linear part. -/
def layer2 {N K Q : Nat} (mean h : Arr2 N K) (Wl Wr : Arr2 Q K) (b : Arr1 Q) : Arr2 N Q :=
  fun i => logSoftmax (fun j => lin mean h Wl Wr b (row i) j) (col i)

/-- The row maximum is at least the value it is folded from, so taking the maximum with that value again changes nothing. -/
theorem max_ninf_rowMax {Q : Nat} (z : Fin Q → EReal) : max ninf32 (rowMax z) = rowMax z :=
  max_eq_right (Finset.le_fold_max (b := ninf32) (f := z) (s := Finset.univ) ninf32 |>.mpr (Or.inl le_rfl))

/-- Multiplying by the reciprocal of `max d 1` is dividing by it: `max d 1 ≥ 1` is not zero, so both are the product
    with its inverse. -/
theorem mul_recip_eq_div (a d one : EReal) (h1 : one = 1) : a * Ideal.div one (max d one) = Ideal.div a (max d one) := by
  subst h1
  have hne : max d 1 ≠ 0 := ne_of_gt (lt_of_lt_of_le zero_lt_one (le_max_right d 1))
  unfold Ideal.div
  rw [if_neg hne, if_neg hne, one_mul]

/-- The f32 word of 1.0 is the extended real one. -/
theorem one32 : Ideal.ofBits .f32 0x3F800000#32 = 1 := Ideal.ofBits_one_f32

end Cert.Sage

end
-- ==== Proof.Pay.lean ====
/-
  What each kernel body stores, read at one entry of its block, over the extended reals.
  The first kernel's block entry (p, q) is `max (lin p q) 0` of its five loaded blocks; the second's is the log-softmax,
  along row p, of `lin p ·`. Both bodies add the two products first and the bias last, which is how `lin` is written.
-/
import proofs.«156003_j83769042141372_2_alg».proof.Proof.Gen.KernelIdeal.Skeleton
import proofs.«156003_j83769042141372_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.Sage

/-! ## Two layout operations of a reduced column -/

/-- An `[a]` array cast to the column `[a, 1]` reads, at `(i, u)`, the operand at `i`. -/
theorem shapeCast_a_a1_apply {a : ℕ} {α : Type} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} {α : Type} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The first kernel -/

abbrev D0 := dot_S2000x128_S256x128_S2000x256_1_1_0_0_n_n

theorem d0_lhs0 (i : S2000x256.Idx) (q : D0.contr.Idx) : (D0.lhsIdx i q 0).val = (i 0).val := by
  unfold DotDims.lhsIdx
  rw [dif_neg (show ¬(0 : Fin S2000x128.rank) ∈ D0.lhsBatch by decide), dif_pos (show (0 : Fin S2000x128.rank) ∈ D0.lhsNonContracting by decide)]
  rfl
theorem d0_lhs1 (i : S2000x256.Idx) (q : D0.contr.Idx) : (D0.lhsIdx i q 1).val = (q ⟨0, by decide⟩).val :=
  D0.lhsIdx_val_of_single rfl i q
theorem d0_rhs0 (i : S2000x256.Idx) (q : D0.contr.Idx) : (D0.rhsIdx i q 0).val = (i 1).val := by
  unfold DotDims.rhsIdx
  rw [dif_neg (show ¬(0 : Fin S256x128.rank) ∈ D0.rhsBatch by decide), dif_pos (show (0 : Fin S256x128.rank) ∈ D0.rhsNonContracting by decide)]
  rfl
theorem d0_rhs1 (i : S2000x256.Idx) (q : D0.contr.Idx) : (D0.rhsIdx i q 1).val = (q ⟨0, by decide⟩).val :=
  D0.rhsIdx_val_of_single rfl i q

/-- The block product into a zero accumulator, at row `p` and column `q`: row `p` of the left block against row `q` of
    the right one (the right operand is contracted on its last axis), summed over the 128 input features. -/
theorem mm0_apply (l : FVec Ideal S2000x128 .bf16) (r : FVec Ideal S256x128 .bf16) (p : Fin 2000) (q : Fin 256) :
    matmul D0 none l r (constant S2000x256 .f32 0x00000000#32) (ix2 p q) = ∑ k : Fin 128, l (ix2 p k) * r (ix2 q k) := by
  simp only [matmul]
  rw [Ideal.matmul_constant_zero_apply, ← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun a => Fin.ext (by
    match a with
    | ⟨0, _⟩ => exact d0_lhs0 _ _
    | ⟨1, _⟩ => exact (d0_lhs1 _ _).trans hk)
  have er : D0.rhsIdx (ix2 p q) ((contrEquiv1 D0 128 rfl rfl).symm k) = ix2 q k := funext fun a => Fin.ext (by
    match a with
    | ⟨0, _⟩ => exact d0_rhs0 _ _
    | ⟨1, _⟩ => exact (d0_rhs1 _ _).trans hk)
  rw [el, er]

/-- The body's linear part at row `p`, column `q` of the block: the two block products and the bias row broadcast down the rows
    (the roundings to bf16 on the way into the products are the identity on extended reals). -/
theorem lin0_apply (x0 x1 : Vec Ideal S2000x128 .f32) (x2 x3 : Vec Ideal S256x128 .f32) (x4 : Vec Ideal S256 .f32)
    (hlt : FTy.bf16.bits < FTy.f32.bits) (hc : S256.ShapeCasts S1x256) (hb : S1x256.Broadcasts S2000x256) (p : Fin 2000) (q : Fin 256) :
    (addf (addf (matmul D0 none (truncf .bf16 x0 hlt) (truncf .bf16 x2 hlt) (constant S2000x256 .f32 0x00000000#32))
               (matmul D0 none (truncf .bf16 x1 hlt) (truncf .bf16 x3 hlt) (constant S2000x256 .f32 0x00000000#32)))
         (broadcastTo S2000x256 (shapeCast S1x256 x4 hc) hb) : FVec Ideal S2000x256 .f32) (ix2 p q) = lin x0 x1 x2 x3 x4 p q := by
  rw [addf_apply, addf_apply, mm0_apply, mm0_apply, broadcastTo_1b_ab_apply, shapeCast_a_1a_apply]
  simp only [truncf_apply]
  rfl

/-- The first kernel's stored value at entry `(p, q)` of its block. -/
theorem pay0_apply (x0 x1 : Vec Ideal S2000x128 .f32) (x2 x3 : Vec Ideal S256x128 .f32) (x4 : Vec Ideal S256 .f32) (p : Fin 2000) (q : Fin 256) :
    k0_pay1 x0 x1 x2 x3 x4 (ix2 p q) = max (lin x0 x1 x2 x3 x4 p q) zero32 := by
  unfold k0_pay1
  simp only [shapeCast_self]
  rw [maximumf_apply, lin0_apply]
  rfl

/-! ## The second kernel -/

abbrev D1 := dot_S2000x256_S40x256_S2000x40_1_1_0_0_n_n

theorem d1_lhs0 (i : S2000x40.Idx) (q : D1.contr.Idx) : (D1.lhsIdx i q 0).val = (i 0).val := by
  unfold DotDims.lhsIdx
  rw [dif_neg (show ¬(0 : Fin S2000x256.rank) ∈ D1.lhsBatch by decide), dif_pos (show (0 : Fin S2000x256.rank) ∈ D1.lhsNonContracting by decide)]
  rfl
theorem d1_lhs1 (i : S2000x40.Idx) (q : D1.contr.Idx) : (D1.lhsIdx i q 1).val = (q ⟨0, by decide⟩).val :=
  D1.lhsIdx_val_of_single rfl i q
theorem d1_rhs0 (i : S2000x40.Idx) (q : D1.contr.Idx) : (D1.rhsIdx i q 0).val = (i 1).val := by
  unfold DotDims.rhsIdx
  rw [dif_neg (show ¬(0 : Fin S40x256.rank) ∈ D1.rhsBatch by decide), dif_pos (show (0 : Fin S40x256.rank) ∈ D1.rhsNonContracting by decide)]
  rfl
theorem d1_rhs1 (i : S2000x40.Idx) (q : D1.contr.Idx) : (D1.rhsIdx i q 1).val = (q ⟨0, by decide⟩).val :=
  D1.rhsIdx_val_of_single rfl i q

/-- The block product into a zero accumulator, at row `p` and column `q`: row `p` of the left block against row `q` of
    the right one (the right operand is contracted on its last axis), summed over the 256 input features. -/
theorem mm1_apply (l : FVec Ideal S2000x256 .bf16) (r : FVec Ideal S40x256 .bf16) (p : Fin 2000) (q : Fin 40) :
    matmul D1 none l r (constant S2000x40 .f32 0x00000000#32) (ix2 p q) = ∑ k : Fin 256, l (ix2 p k) * r (ix2 q k) := by
  simp only [matmul]
  rw [Ideal.matmul_constant_zero_apply, ← Equiv.sum_comp (contrEquiv1 D1 256 rfl rfl).symm]
  refine Finset.sum_congr rfl fun k _ => ?_
  have hk := contrEquiv1_symm_val D1 256 rfl rfl k
  have el : D1.lhsIdx (ix2 p q) ((contrEquiv1 D1 256 rfl rfl).symm k) = ix2 p k := funext fun a => Fin.ext (by
    match a with
    | ⟨0, _⟩ => exact d1_lhs0 _ _
    | ⟨1, _⟩ => exact (d1_lhs1 _ _).trans hk)
  have er : D1.rhsIdx (ix2 p q) ((contrEquiv1 D1 256 rfl rfl).symm k) = ix2 q k := funext fun a => Fin.ext (by
    match a with
    | ⟨0, _⟩ => exact d1_rhs0 _ _
    | ⟨1, _⟩ => exact (d1_rhs1 _ _).trans hk)
  rw [el, er]

/-- The body's linear part at row `p`, column `q` of the block: the two block products and the bias row broadcast down the rows
    (the roundings to bf16 on the way into the products are the identity on extended reals). -/
theorem lin1_apply (x0 x1 : Vec Ideal S2000x256 .f32) (x2 x3 : Vec Ideal S40x256 .f32) (x4 : Vec Ideal S40 .f32)
    (hlt : FTy.bf16.bits < FTy.f32.bits) (hc : S40.ShapeCasts S1x40) (hb : S1x40.Broadcasts S2000x40) (p : Fin 2000) (q : Fin 40) :
    (addf (addf (matmul D1 none (truncf .bf16 x0 hlt) (truncf .bf16 x2 hlt) (constant S2000x40 .f32 0x00000000#32))
               (matmul D1 none (truncf .bf16 x1 hlt) (truncf .bf16 x3 hlt) (constant S2000x40 .f32 0x00000000#32)))
         (broadcastTo S2000x40 (shapeCast S1x40 x4 hc) hb) : FVec Ideal S2000x40 .f32) (ix2 p q) = lin x0 x1 x2 x3 x4 p q := by
  rw [addf_apply, addf_apply, mm1_apply, mm1_apply, broadcastTo_1b_ab_apply, shapeCast_a_1a_apply]
  simp only [truncf_apply]
  rfl

/-- A row's maximum by the lane reduction, from minus infinity. -/
theorem rowmax_apply (z : FVec Ideal S2000x40 .f32) (hr : S2000x40.Reduces [1] S2000) (hφ : FKind.Formats .f32)
    (hmax : (0xFF800000#32 : BitVec 32) = FKind.maximumf.neutral .f32 hφ) (p : Fin 2000) :
    multiReduction .maximumf [1] S2000 z 0xFF800000#32 hr hφ hmax (ix1 p) = rowMax (fun k => z (ix2 p k)) := by
  rw [Ideal.multiReduction_maximumf_single]
  unfold rowMax
  show (Finset.univ : Finset (Fin 40)).fold max (Ideal.ofBits .f32 0xFF800000#32) (fun k => z (hr.lift (ix1 p) k)) = _
  refine congrArg (fun f => (Finset.univ : Finset (Fin 40)).fold max (Ideal.ofBits .f32 0xFF800000#32) f) (funext fun k => congrArg z ?_)
  funext a; apply Fin.ext
  match a with
  | ⟨0, _⟩ => rfl
  | ⟨1, _⟩ => rfl

/-- A row's sum by the lane reduction. -/
theorem rowsum_apply (e : FVec Ideal S2000x40 .f32) (hr : S2000x40.Reduces [1] S2000) (hφ : FKind.Formats .f32)
    (hadd : (0x00000000#32 : BitVec 32) = FKind.add.neutral .f32 hφ) (p : Fin 2000) :
    multiReduction .add [1] S2000 e 0x00000000#32 hr hφ hadd (ix1 p) = ∑ k : Fin 40, e (ix2 p k) := by
  rw [Ideal.multiReduction_add_single]
  show (∑ k : Fin 40, e (hr.lift (ix1 p) k)) = _
  refine Finset.sum_congr rfl fun k _ => congrArg e ?_
  funext a; apply Fin.ext
  match a with
  | ⟨0, _⟩ => rfl
  | ⟨1, _⟩ => rfl

/-- A per-row value kept as a column and broadcast along the row reads, anywhere in row `p`, that row's value. -/
theorem colbc_apply (v : FVec Ideal S2000 .f32) (hc : S2000.ShapeCasts S2000x1) (hb : S2000x1.Broadcasts S2000x40) (p : Fin 2000) (c : Fin 40) :
    broadcastTo S2000x40 (shapeCast S2000x1 v hc) hb (ix2 p c) = v (ix1 p) := by
  rw [broadcastTo_a1_ab_apply, shapeCast_a_a1_apply]
theorem colbc_log_apply (v : FVec Ideal S2000 .f32) (hc : S2000.ShapeCasts S2000x1) (hb : S2000x1.Broadcasts S2000x40) (p : Fin 2000) (c : Fin 40) :
    broadcastTo S2000x40 (log (shapeCast S2000x1 v hc)) hb (ix2 p c) = Ideal.log (v (ix1 p)) := by
  rw [broadcastTo_a1_ab_apply]
  show Ideal.log (shapeCast S2000x1 v hc (ix2 p (0 : Fin 1))) = _
  rw [shapeCast_a_a1_apply]

/-- The log-softmax tail of the second body, at entry `(p, q)`: subtract the row's maximum, subtract the log of the row's
    sum of exponentials of the shifted row. -/
theorem lsm_apply (z : FVec Ideal S2000x40 .f32) (hr : S2000x40.Reduces [1] S2000) (hφ : FKind.Formats .f32)
    (hmax : (0xFF800000#32 : BitVec 32) = FKind.maximumf.neutral .f32 hφ) (hadd : (0x00000000#32 : BitVec 32) = FKind.add.neutral .f32 hφ)
    (hc : S2000.ShapeCasts S2000x1) (hb : S2000x1.Broadcasts S2000x40) (p : Fin 2000) (q : Fin 40) :
    subf (subf z (broadcastTo S2000x40 (shapeCast S2000x1 (multiReduction .maximumf [1] S2000 z 0xFF800000#32 hr hφ hmax) hc) hb))
        (broadcastTo S2000x40 (log (shapeCast S2000x1 (multiReduction .add [1] S2000 (exp (subf z (broadcastTo S2000x40 (shapeCast S2000x1 (multiReduction .maximumf [1] S2000 z 0xFF800000#32 hr hφ hmax) hc) hb))) 0x00000000#32 hr hφ hadd) hc)) hb) (ix2 p q)
      = logSoftmax (fun k => z (ix2 p k)) q := by
  generalize hM : multiReduction .maximumf [1] S2000 z 0xFF800000#32 hr hφ hmax = M
  have hMp : M (ix1 p) = rowMax (fun k => z (ix2 p k)) := by rw [← hM]; exact rowmax_apply z hr hφ hmax p
  generalize hB : broadcastTo S2000x40 (shapeCast S2000x1 M hc) hb = B
  have hBp : ∀ c : Fin 40, B (ix2 p c) = rowMax (fun k => z (ix2 p k)) := fun c => by rw [← hB, colbc_apply, hMp]
  generalize hS : multiReduction .add [1] S2000 (exp (subf z B)) 0x00000000#32 hr hφ hadd = S
  have hSp : S (ix1 p) = ∑ k : Fin 40, Ideal.exp (z (ix2 p k) - rowMax (fun k => z (ix2 p k))) := by
    rw [← hS, rowsum_apply]
    refine Finset.sum_congr rfl fun k _ => ?_
    show Ideal.exp (z (ix2 p k) - B (ix2 p k)) = _
    rw [hBp]
  show (z (ix2 p q) - B (ix2 p q)) - broadcastTo S2000x40 (log (shapeCast S2000x1 S hc)) hb (ix2 p q) = _
  rw [hBp, colbc_log_apply, hSp]
  rfl

/-- The second kernel's stored value at entry `(p, q)` of its block. -/
theorem pay1_apply (x0 x1 : Vec Ideal S2000x256 .f32) (x2 x3 : Vec Ideal S40x256 .f32) (x4 : Vec Ideal S40 .f32) (p : Fin 2000) (q : Fin 40) :
    k1_pay1 x0 x1 x2 x3 x4 (ix2 p q) = logSoftmax (fun j => lin x0 x1 x2 x3 x4 p j) q := by
  unfold k1_pay1
  simp only [shapeCast_self]
  refine (lsm_apply _ _ _ _ _ _ _ p q).trans ?_
  refine congrArg (fun z => logSoftmax z q) (funext fun k => ?_)
  exact lin1_apply x0 x1 x2 x3 x4 _ _ _ p k

end Cert.KernelIdeal.Pay

end
-- ==== Proof.Blocks.lean ====
/-
  From blocks to arrays. Each kernel runs over 25 grid points; point `t` reads rows `2000 t … 2000 t + 1999` of its two
  node-indexed inputs and the whole of the weights and the bias, and writes back rows `2000 t … 2000 t + 1999` of its output.
  A row of the output depends only on the same row of the inputs, so every written block is the corresponding block of ONE
  whole-array function of the arrays the region finds (`layer1` for the first kernel, `layer2` for the second), and since the
  25 blocks tile the output, the output array ends holding that function.
-/
import proofs.«156003_j83769042141372_2_alg».proof.Proof.Gen.KernelIdeal.Frame
import proofs.«156003_j83769042141372_2_alg».proof.Proof.Pay
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Pay Cert.Sage

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 0 -/

/-- The printed index maps over the grid: the two row-blocked inputs and the output sit at block `t` along the nodes, the
    weights and the bias at their one block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `x 0` of the aggregated-mean block at point `t` is row `2000 t + x 0` of the array. -/
theorem iblk0_0_apply (c : Dev nD) (t : Fin cfg0.N) (x : S2000x128.Idx) (i : S50000x128.Idx)
    (h0 : (i 0).val = 2000 * t.val + (x 0).val) (h1 : (i 1).val = (x 1).val) :
    (iblk0 V c 0 t : Vec Ideal S2000x128 .f32) x = (V c main_v24 : S50000x128.Idx → Elt Ideal .f32) i := by
  obtain ⟨e0, e1, -⟩ := idx0 t
  unfold iblk0
  rw [View.read_apply]
  show V c main_v24 _ = V c main_v24 _
  congr 1
  funext a; apply Fin.ext
  match a with
  | ⟨0, _⟩ => show win0_0.index t 0 * 2000 + 1 * (x 0).val = (i 0).val; rw [e0, h0]; omega
  | ⟨1, _⟩ => show win0_0.index t 1 * 128 + 1 * (x 1).val = (i 1).val; rw [e1, h1]; omega
/-- The same of the node-feature block. -/
theorem iblk0_1_apply (c : Dev nD) (t : Fin cfg0.N) (x : S2000x128.Idx) (i : S50000x128.Idx)
    (h0 : (i 0).val = 2000 * t.val + (x 0).val) (h1 : (i 1).val = (x 1).val) :
    (iblk0 V c 1 t : Vec Ideal S2000x128 .f32) x = (V c main_arg0 : S50000x128.Idx → Elt Ideal .f32) i := by
  obtain ⟨-, -, e0, e1, -⟩ := idx0 t
  unfold iblk0
  rw [View.read_apply]
  show V c main_arg0 _ = V c main_arg0 _
  congr 1
  funext a; apply Fin.ext
  match a with
  | ⟨0, _⟩ => show win0_1.index t 0 * 2000 + 1 * (x 0).val = (i 0).val; rw [e0, h0]; omega
  | ⟨1, _⟩ => show win0_1.index t 1 * 128 + 1 * (x 1).val = (i 1).val; rw [e1, h1]; omega
/-- The weights' and the bias's one block is the whole array. -/
theorem iblk0_2_eq (c : Dev nD) (t : Fin cfg0.N) :
    (iblk0 V c 2 t : Vec Ideal S256x128 .f32) = (V c main_arg2 : S256x128.Idx → Elt Ideal .f32) := by
  obtain ⟨-, -, -, -, e0, e1, -⟩ := idx0 t
  funext x
  unfold iblk0
  rw [View.read_apply]
  show V c main_arg2 _ = V c main_arg2 _
  congr 1
  funext a; apply Fin.ext
  match a with
  | ⟨0, _⟩ => show win0_2.index t 0 * 256 + 1 * (x 0).val = (x 0).val; rw [e0]; omega
  | ⟨1, _⟩ => show win0_2.index t 1 * 128 + 1 * (x 1).val = (x 1).val; rw [e1]; omega
theorem iblk0_3_eq (c : Dev nD) (t : Fin cfg0.N) :
    (iblk0 V c 3 t : Vec Ideal S256x128 .f32) = (V c main_arg4 : S256x128.Idx → Elt Ideal .f32) := by
  obtain ⟨-, -, -, -, -, -, e0, e1, -⟩ := idx0 t
  funext x
  unfold iblk0
  rw [View.read_apply]
  show V c main_arg4 _ = V c main_arg4 _
  congr 1
  funext a; apply Fin.ext
  match a with
  | ⟨0, _⟩ => show win0_3.index t 0 * 256 + 1 * (x 0).val = (x 0).val; rw [e0]; omega
  | ⟨1, _⟩ => show win0_3.index t 1 * 128 + 1 * (x 1).val = (x 1).val; rw [e1]; omega
theorem iblk0_4_eq (c : Dev nD) (t : Fin cfg0.N) :
    (iblk0 V c 4 t : Vec Ideal S256 .f32) = (V c main_arg3 : S256.Idx → Elt Ideal .f32) := by
  obtain ⟨-, -, -, -, -, -, -, -, e0, -⟩ := idx0 t
  funext x
  unfold iblk0
  rw [View.read_apply]
  show V c main_arg3 _ = V c main_arg3 _
  congr 1
  funext a; apply Fin.ext
  match a with
  | ⟨0, _⟩ => show win0_4.index t 0 * 256 + 1 * (x 0).val = (x 0).val; rw [e0]; omega

/-- WHAT POINT `t` WRITES BACK is block `t` of `layer1` of the arrays as the region finds them: entry `(p, q)` of the
    block is the body's value of rows `p` of the two row blocks, which are rows `2000 t + p` of the arrays. -/
theorem flushed0_eq (c : Dev nD) (t : Fin cfg0.N) :
    (dat0 V c).flushed 5 t = ((cfg0.win 5).blk t).view.read (Elt Ideal)
      (layer1 (V c main_v24) (V c main_arg0) (V c main_arg2) (V c main_arg4) (V c main_arg3) : S50000x256.Idx → Elt Ideal .f32) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S256x128) hz2, View.ld_unit_zero (S := S256) hz1]
  rw [iblk0_2_eq, iblk0_3_eq, iblk0_4_eq]
  obtain ⟨-, -, -, -, -, -, -, -, -, e0, e1⟩ := idx0 t
  funext j
  obtain ⟨p, q, rfl⟩ : ∃ (p : Fin 2000) (q : Fin 256), j = ix2 p q := ⟨j 0, j 1, eq_ix2 j⟩
  show k0_pay1 (iblk0 V c 0 t) (iblk0 V c 1 t) (V c main_arg2) (V c main_arg4) (V c main_arg3) (ix2 p q)
    = layer1 (V c main_v24) (V c main_arg0) (V c main_arg2) (V c main_arg4) (V c main_arg3) (((cfg0.win 5).blk t).view.emb (ix2 p q))
  rw [pay0_apply]
  have hr : (row (((cfg0.win 5).blk t).view.emb (ix2 p q) : S50000x256.Idx)).val = 2000 * t.val + p.val := by
    show win0_5.index t 0 * 2000 + 1 * p.val = _; rw [e0]; omega
  have hq : col (((cfg0.win 5).blk t).view.emb (ix2 p q) : S50000x256.Idx) = q := Fin.ext (by
    show win0_5.index t 1 * 256 + 1 * q.val = _; rw [e1]; omega)
  unfold layer1
  show _ = max (lin _ _ _ _ _ (row _) (col _)) zero32
  rw [hq]
  generalize row (((cfg0.win 5).blk t).view.emb (ix2 p q) : S50000x256.Idx) = r at hr ⊢
  have hl : ∀ j : Fin 256, lin (iblk0 V c 0 t) (iblk0 V c 1 t) (V c main_arg2) (V c main_arg4) (V c main_arg3) p j
      = lin (V c main_v24) (V c main_arg0) (V c main_arg2) (V c main_arg4) (V c main_arg3) r j := fun j =>
    lin_congr (V c main_v24) (V c main_arg0) (iblk0 V c 0 t) (iblk0 V c 1 t) (V c main_arg2) (V c main_arg4) (V c main_arg3) r p j
      (fun k => iblk0_0_apply V c t (ix2 p k) (ix2 r k) hr rfl) (fun k => iblk0_1_apply V c t (ix2 p k) (ix2 r k) hr rfl)
  rw [hl q]

/-- An index of the output array is in point `t`'s block iff each coordinate is in the block's range on its axis. -/
theorem mem_blk0 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v25).slice (win0_5.rect t)).set ↔ _
  rw [View.set_slice_whole, Rect.mem_set_unit]
  exact Iff.rfl

/-- Every node's row is in the block of the point `row / 2000`: the 25 blocks tile the array. -/
theorem cover0 (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  have ht : (i 0).val / 2000 < cfg0.N := by rw [hN]; omega
  obtain ⟨-, -, -, -, -, -, -, -, -, e0, e1⟩ := idx0 ⟨(i 0).val / 2000, ht⟩
  refine ⟨⟨(i 0).val / 2000, ht⟩, flush0_5 _, ?_⟩
  rw [mem_blk0]
  intro a
  match a with
  | ⟨0, _⟩ =>
    show win0_5.index ⟨(i 0).val / 2000, ht⟩ 0 * 2000 ≤ (i 0).val ∧ (i 0).val < win0_5.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ 1 * 256 ≤ (i 1).val ∧ (i 1).val < win0_5.index ⟨(i 0).val / 2000, ht⟩ 1 * 256 + 256
    rw [e1]; omega

/-- THE OUTPUT ARRAY after region 0: `layer1` of the arrays the region found. -/
theorem final0 (c : Dev nD) : (dat0 V c).arrAt 5 cfg0.N
    = (layer1 (V c main_v24) (V c main_arg0) (V c main_arg2) (V c main_arg4) (V c main_arg3) : S50000x256.Idx → Elt Ideal .f32) :=
  (dat0 V c).arrAt_eq_of_cover 5 _ (fun t _ => flushed0_eq V c t) cover0

/-! ## Region 1 -/

/-- The printed index maps over the grid: the two row-blocked inputs and the output sit at block `t` along the nodes, the
    weights and the bias at their one block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `x 0` of the aggregated-mean block at point `t` is row `2000 t + x 0` of the array. -/
theorem iblk1_0_apply (c : Dev nD) (t : Fin cfg1.N) (x : S2000x256.Idx) (i : S50000x256.Idx)
    (h0 : (i 0).val = 2000 * t.val + (x 0).val) (h1 : (i 1).val = (x 1).val) :
    (iblk1 V c 0 t : Vec Ideal S2000x256 .f32) x = (V c main_v38 : S50000x256.Idx → Elt Ideal .f32) i := by
  obtain ⟨e0, e1, -⟩ := idx1 t
  unfold iblk1
  rw [View.read_apply]
  show V c main_v38 _ = V c main_v38 _
  congr 1
  funext a; apply Fin.ext
  match a with
  | ⟨0, _⟩ => show win1_0.index t 0 * 2000 + 1 * (x 0).val = (i 0).val; rw [e0, h0]; omega
  | ⟨1, _⟩ => show win1_0.index t 1 * 256 + 1 * (x 1).val = (i 1).val; rw [e1, h1]; omega
/-- The same of the node-feature block. -/
theorem iblk1_1_apply (c : Dev nD) (t : Fin cfg1.N) (x : S2000x256.Idx) (i : S50000x256.Idx)
    (h0 : (i 0).val = 2000 * t.val + (x 0).val) (h1 : (i 1).val = (x 1).val) :
    (iblk1 V c 1 t : Vec Ideal S2000x256 .f32) x = (V c main_v25 : S50000x256.Idx → Elt Ideal .f32) i := by
  obtain ⟨-, -, e0, e1, -⟩ := idx1 t
  unfold iblk1
  rw [View.read_apply]
  show V c main_v25 _ = V c main_v25 _
  congr 1
  funext a; apply Fin.ext
  match a with
  | ⟨0, _⟩ => show win1_1.index t 0 * 2000 + 1 * (x 0).val = (i 0).val; rw [e0, h0]; omega
  | ⟨1, _⟩ => show win1_1.index t 1 * 256 + 1 * (x 1).val = (i 1).val; rw [e1, h1]; omega
/-- The weights' and the bias's one block is the whole array. -/
theorem iblk1_2_eq (c : Dev nD) (t : Fin cfg1.N) :
    (iblk1 V c 2 t : Vec Ideal S40x256 .f32) = (V c main_arg5 : S40x256.Idx → Elt Ideal .f32) := by
  obtain ⟨-, -, -, -, e0, e1, -⟩ := idx1 t
  funext x
  unfold iblk1
  rw [View.read_apply]
  show V c main_arg5 _ = V c main_arg5 _
  congr 1
  funext a; apply Fin.ext
  match a with
  | ⟨0, _⟩ => show win1_2.index t 0 * 40 + 1 * (x 0).val = (x 0).val; rw [e0]; omega
  | ⟨1, _⟩ => show win1_2.index t 1 * 256 + 1 * (x 1).val = (x 1).val; rw [e1]; omega
theorem iblk1_3_eq (c : Dev nD) (t : Fin cfg1.N) :
    (iblk1 V c 3 t : Vec Ideal S40x256 .f32) = (V c main_arg7 : S40x256.Idx → Elt Ideal .f32) := by
  obtain ⟨-, -, -, -, -, -, e0, e1, -⟩ := idx1 t
  funext x
  unfold iblk1
  rw [View.read_apply]
  show V c main_arg7 _ = V c main_arg7 _
  congr 1
  funext a; apply Fin.ext
  match a with
  | ⟨0, _⟩ => show win1_3.index t 0 * 40 + 1 * (x 0).val = (x 0).val; rw [e0]; omega
  | ⟨1, _⟩ => show win1_3.index t 1 * 256 + 1 * (x 1).val = (x 1).val; rw [e1]; omega
theorem iblk1_4_eq (c : Dev nD) (t : Fin cfg1.N) :
    (iblk1 V c 4 t : Vec Ideal S40 .f32) = (V c main_arg6 : S40.Idx → Elt Ideal .f32) := by
  obtain ⟨-, -, -, -, -, -, -, -, e0, -⟩ := idx1 t
  funext x
  unfold iblk1
  rw [View.read_apply]
  show V c main_arg6 _ = V c main_arg6 _
  congr 1
  funext a; apply Fin.ext
  match a with
  | ⟨0, _⟩ => show win1_4.index t 0 * 40 + 1 * (x 0).val = (x 0).val; rw [e0]; omega

/-- WHAT POINT `t` WRITES BACK is block `t` of `layer2` of the arrays as the region finds them: entry `(p, q)` of the
    block is the body's value of rows `p` of the two row blocks, which are rows `2000 t + p` of the arrays. -/
theorem flushed1_eq (c : Dev nD) (t : Fin cfg1.N) :
    (dat1 V c).flushed 5 t = ((cfg1.win 5).blk t).view.read (Elt Ideal)
      (layer2 (V c main_v38) (V c main_v25) (V c main_arg5) (V c main_arg7) (V c main_arg6) : S50000x40.Idx → Elt Ideal .f32) := by
  show (cfg1.win 5).cut (grid1.coords t) ((dat1 V c).after 5 t) = _
  rw [after1_5]
  unfold out1_5
  rw [View.canon_unit_zero hz2]
  simp only [View.ld_unit_zero (S := S2000x256) hz2, View.ld_unit_zero (S := S40x256) hz2, View.ld_unit_zero (S := S40) hz1]
  rw [iblk1_2_eq, iblk1_3_eq, iblk1_4_eq]
  obtain ⟨-, -, -, -, -, -, -, -, -, e0, e1⟩ := idx1 t
  funext j
  obtain ⟨p, q, rfl⟩ : ∃ (p : Fin 2000) (q : Fin 40), j = ix2 p q := ⟨j 0, j 1, eq_ix2 j⟩
  show k1_pay1 (iblk1 V c 0 t) (iblk1 V c 1 t) (V c main_arg5) (V c main_arg7) (V c main_arg6) (ix2 p q)
    = layer2 (V c main_v38) (V c main_v25) (V c main_arg5) (V c main_arg7) (V c main_arg6) (((cfg1.win 5).blk t).view.emb (ix2 p q))
  rw [pay1_apply]
  have hr : (row (((cfg1.win 5).blk t).view.emb (ix2 p q) : S50000x40.Idx)).val = 2000 * t.val + p.val := by
    show win1_5.index t 0 * 2000 + 1 * p.val = _; rw [e0]; omega
  have hq : col (((cfg1.win 5).blk t).view.emb (ix2 p q) : S50000x40.Idx) = q := Fin.ext (by
    show win1_5.index t 1 * 40 + 1 * q.val = _; rw [e1]; omega)
  unfold layer2
  show _ = logSoftmax (fun j => lin _ _ _ _ _ (row _) j) (col _)
  rw [hq]
  generalize row (((cfg1.win 5).blk t).view.emb (ix2 p q) : S50000x40.Idx) = r at hr ⊢
  have hl : ∀ j : Fin 40, lin (iblk1 V c 0 t) (iblk1 V c 1 t) (V c main_arg5) (V c main_arg7) (V c main_arg6) p j
      = lin (V c main_v38) (V c main_v25) (V c main_arg5) (V c main_arg7) (V c main_arg6) r j := fun j =>
    lin_congr (V c main_v38) (V c main_v25) (iblk1 V c 0 t) (iblk1 V c 1 t) (V c main_arg5) (V c main_arg7) (V c main_arg6) r p j
      (fun k => iblk1_0_apply V c t (ix2 p k) (ix2 r k) hr rfl) (fun k => iblk1_1_apply V c t (ix2 p k) (ix2 r k) hr rfl)
  simp only [hl]

/-- An index of the output array is in point `t`'s block iff each coordinate is in the block's range on its axis. -/
theorem mem_blk1 (t : Fin cfg1.N) (i : S50000x40.Idx) :
    i ∈ ((cfg1.win 5).blk t).view.set ↔ ∀ a : Fin 2, win1_5.index t a * S2000x40.size a ≤ (i a).val ∧ (i a).val < win1_5.index t a * S2000x40.size a + S2000x40.size a := by
  show i ∈ ((View.whole main_v39).slice (win1_5.rect t)).set ↔ _
  rw [View.set_slice_whole, Rect.mem_set_unit]
  exact Iff.rfl

/-- Every node's row is in the block of the point `row / 2000`: the 25 blocks tile the array. -/
theorem cover1 (i : S50000x40.Idx) : ∃ t : Fin cfg1.N, (cfg1.win 5).flush t = true ∧ i ∈ ((cfg1.win 5).blk t).view.set := by
  have hi0 : (i 0).val < 50000 := (i 0).isLt
  have hi1 : (i 1).val < 40 := (i 1).isLt
  have hN : cfg1.N = 25 := N_1
  have ht : (i 0).val / 2000 < cfg1.N := by rw [hN]; omega
  obtain ⟨-, -, -, -, -, -, -, -, -, e0, e1⟩ := idx1 ⟨(i 0).val / 2000, ht⟩
  refine ⟨⟨(i 0).val / 2000, ht⟩, flush1_5 _, ?_⟩
  rw [mem_blk1]
  intro a
  match a with
  | ⟨0, _⟩ =>
    show win1_5.index ⟨(i 0).val / 2000, ht⟩ 0 * 2000 ≤ (i 0).val ∧ (i 0).val < win1_5.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ 1 * 40 ≤ (i 1).val ∧ (i 1).val < win1_5.index ⟨(i 0).val / 2000, ht⟩ 1 * 40 + 40
    rw [e1]; omega

/-- THE OUTPUT ARRAY after region 1: `layer2` of the arrays the region found. -/
theorem final1 (c : Dev nD) : (dat1 V c).arrAt 5 cfg1.N
    = (layer2 (V c main_v38) (V c main_v25) (V c main_arg5) (V c main_arg7) (V c main_arg6) : S50000x40.Idx → Elt Ideal .f32) :=
  (dat1 V c).arrAt_eq_of_cover 5 _ (fun t _ => flushed1_eq V c t) cover1

end Cert.KernelIdeal.Blocks

end
-- ==== Proof.Chain.lean ====
/-
  The kernel program's run, read as a value. @main is four segments: host operations, the first kernel (25 grid points),
  host operations, the second kernel (25 grid points). The host operations before the first kernel split the edge list into
  sources and destinations, count each node's in-degree by a scattered sum of ones, take the reciprocal of `max deg 1`, gather
  the source rows of `x`, scatter-add them at the destinations and scale each row by the reciprocal; the ones between the
  kernels do the same with the first kernel's output. Each kernel's output array is `layer1` / `layer2` of the arrays its
  region finds (Blocks), so the result array is `kernelOut` of @main's arguments.
-/
import proofs.«156003_j83769042141372_2_alg».proof.Proof.Gen.KernelIdeal.Frame
import proofs.«156003_j83769042141372_2_alg».proof.Proof.Blocks
import Idealize.ShloMosaic.Lib.StableHlo.Run

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Sage

section Host

variable {F : FTy → Type} [FloatOps F]

/-! ## The host operations as functions of the arrays they read -/

/-- The edges' source nodes: row 0 of the edge list. -/
def src (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000
/-- The edges' destination nodes: row 1 of the edge list. -/
def dst (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000
/-- A source index read the way jnp indexing reads it: a negative one counts from the end. -/
def wrap (s : (⟨S800000, .i32⟩ : BufTy).Contents (Elt F)) : (⟨S800000, .i32⟩ : BufTy).Contents (Elt F) :=
  select (cmpi .slt s (broadcastInDim S800000 ![] bcast_S_S800000 (constantI S_ 32 0#32)))
    (addi s (broadcastInDim S800000 ![] bcast_S_S800000 (constantI S_ 32 50000#32))) s
/-- Each node's in-degree: the scattered sum of a one per edge at the edge's destination. -/
def deg (d : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant (F := F) S_ .f32 0x00000000#32))
    (broadcastInDim S800000x1 ![0] bcast_S800000_S800000x1_0 d)
    (broadcastInDim S800000 ![] bcast_S_S800000 (constant (F := F) S_ .f32 0x3F800000#32))
/-- Each node's `1 / max deg 1`. -/
def recip (d : (⟨S800000, .i32⟩ : BufTy).Contents (Elt F)) : (⟨S50000, .f32⟩ : BufTy).Contents (Elt F) :=
  Host.divf (broadcastInDim S50000 ![] bcast_S_S50000 (constant (F := F) S_ .f32 0x3F800000#32))
    (maximumf (deg d) (broadcastInDim S50000 ![] bcast_S_S50000 (constant (F := F) S_ .f32 0x3F800000#32)))
/-- The first layer's neighbour sum: the source rows gathered and summed at the destinations. -/
def agg1 (x : (⟨S50000x128, .f32⟩ : BufTy).Contents (Elt F)) (s d : (⟨S800000, .i32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 d)
    (Host.gather gather_S50000x128_S800000x1_S800000x128_1_0_n_n_0_1_1128 x (broadcastInDim S800000x1 ![0] bcast_S800000_S800000x1_0 (wrap s)))
/-- The first layer's neighbour mean: each row of the sum scaled by the node's reciprocal. -/
def mean1 (x : (⟨S50000x128, .f32⟩ : BufTy).Contents (Elt F)) (s d : (⟨S800000, .i32⟩ : BufTy).Contents (Elt F)) (r : (⟨S50000, .f32⟩ : BufTy).Contents (Elt F)) : (⟨S50000x128, .f32⟩ : BufTy).Contents (Elt F) :=
  mulf (agg1 x s d)
    (broadcastInDim S50000x128 ![0, 1] bcast_S50000x1_S50000x128_0_1 (broadcastInDim S50000x1 ![0] bcast_S50000_S50000x1_0 r))
/-- The second layer's neighbour sum and mean, of the first layer's output. -/
def agg2 (h : (⟨S50000x256, .f32⟩ : BufTy).Contents (Elt F)) (s d : (⟨S800000, .i32⟩ : BufTy).Contents (Elt F)) : (⟨S50000x256, .f32⟩ : BufTy).Contents (Elt F) :=
  Host.scatterAdd scatter_S50000x256_S800000x1_S800000x256_1_0_0_1
    (broadcastInDim S50000x256 ![] bcast_S_S50000x256 (constant (F := F) S_ .f32 0x00000000#32))
    (broadcastInDim S800000x1 ![0] bcast_S800000_S800000x1_0 d)
    (Host.gather gather_S50000x256_S800000x1_S800000x256_1_0_n_n_0_1_1256 h (broadcastInDim S800000x1 ![0] bcast_S800000_S800000x1_0 (wrap s)))
def mean2 (h : (⟨S50000x256, .f32⟩ : BufTy).Contents (Elt F)) (s d : (⟨S800000, .i32⟩ : BufTy).Contents (Elt F)) (r : (⟨S50000, .f32⟩ : BufTy).Contents (Elt F)) : (⟨S50000x256, .f32⟩ : BufTy).Contents (Elt F) :=
  mulf (agg2 h s d)
    (broadcastInDim S50000x256 ![0, 1] bcast_S50000x1_S50000x256_0_1 (broadcastInDim S50000x1 ![0] bcast_S50000_S50000x1_0 r))

end Host

/-- The kernel program's result as one function of @main's arguments. -/
def kernelOut (x : (⟨S50000x128, .f32⟩ : BufTy).Contents (Elt Ideal)) (e : (⟨S2x800000, .i32⟩ : BufTy).Contents (Elt Ideal))
    (w1l : (⟨S256x128, .f32⟩ : BufTy).Contents (Elt Ideal)) (b1 : (⟨S256, .f32⟩ : BufTy).Contents (Elt Ideal))
    (w1r : (⟨S256x128, .f32⟩ : BufTy).Contents (Elt Ideal)) (w2l : (⟨S40x256, .f32⟩ : BufTy).Contents (Elt Ideal))
    (b2 : (⟨S40, .f32⟩ : BufTy).Contents (Elt Ideal)) (w2r : (⟨S40x256, .f32⟩ : BufTy).Contents (Elt Ideal)) :
    (⟨S50000x40, .f32⟩ : BufTy).Contents (Elt Ideal) :=
  layer2 (mean2 (layer1 (mean1 x (src e) (dst e) (recip (dst e))) x w1l w1r b1) (src e) (dst e) (recip (dst e)))
    (layer1 (mean1 x (src e) (dst e) (recip (dst e))) x w1l w1r b1) w2l w2r b2

/-! ## The run with the result buffer in its post -/

section Run

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every weakly fair execution of the kernel program terminates, nothing faulting, with the result buffer at the last
    segment boundary's contents `W4` and the argument arrays as launched. -/
theorem run_out : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Run

/-! ## The contents at each segment boundary, read -/

section Values

variable (m : (ℓ : Loc nD τ sig) → Buf (Elt Ideal) ℓ) (ρ : Dev nD → PrngReg)

/-- After the first stretch of host operations. -/
theorem W1_v1 (c : Dev nD) : W1 m ρ c (Proc.devRef .tc main_v1) = src (m ((c.tc : Thread nD τ).loc main_arg1)) := by
  show StableHlo.after hostOps0 (W0 m ρ c) (Proc.devRef .tc main_v1) = _
  after_results_simp <;> rfl
theorem W1_v3 (c : Dev nD) : W1 m ρ c (Proc.devRef .tc main_v3) = dst (m ((c.tc : Thread nD τ).loc main_arg1)) := by
  show StableHlo.after hostOps0 (W0 m ρ c) (Proc.devRef .tc main_v3) = _
  after_results_simp <;> rfl
theorem W1_v11 (c : Dev nD) : W1 m ρ c (Proc.devRef .tc main_v11) = recip (dst (m ((c.tc : Thread nD τ).loc main_arg1))) := by
  show StableHlo.after hostOps0 (W0 m ρ c) (Proc.devRef .tc main_v11) = _
  after_results_simp <;> rfl
set_option maxHeartbeats 2000000 in
theorem W1_v24 (c : Dev nD) : W1 m ρ c (Proc.devRef .tc main_v24)
    = mean1 (m ((c.tc : Thread nD τ).loc main_arg0)) (src (m ((c.tc : Thread nD τ).loc main_arg1))) (dst (m ((c.tc : Thread nD τ).loc main_arg1)))
        (recip (dst (m ((c.tc : Thread nD τ).loc main_arg1)))) := by
  show StableHlo.after hostOps0 (W0 m ρ c) (Proc.devRef .tc main_v24) = _
  after_results_simp <;> rfl
theorem W1_arg0 (c : Dev nD) : W1 m ρ c (Proc.devRef .tc main_arg0) = m ((c.tc : Thread nD τ).loc main_arg0) := by
  show StableHlo.after hostOps0 (W0 m ρ c) (Proc.devRef .tc main_arg0) = _
  after_results_simp <;> rfl
theorem W1_arg2 (c : Dev nD) : W1 m ρ c (Proc.devRef .tc main_arg2) = m ((c.tc : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c.tc : Thread nD τ).loc main_arg3) := by
  show StableHlo.after hostOps0 (W0 m ρ c) (Proc.devRef .tc main_arg3) = _
  after_results_simp <;> rfl
theorem W1_arg4 (c : Dev nD) : W1 m ρ c (Proc.devRef .tc main_arg4) = m ((c.tc : Thread nD τ).loc main_arg4) := by
  show StableHlo.after hostOps0 (W0 m ρ c) (Proc.devRef .tc main_arg4) = _
  after_results_simp <;> rfl
theorem W1_arg5 (c : Dev nD) : W1 m ρ c (Proc.devRef .tc main_arg5) = m ((c.tc : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c.tc : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c.tc : Thread nD τ).loc main_arg7) := by
  show StableHlo.after hostOps0 (W0 m ρ c) (Proc.devRef .tc main_arg7) = _
  after_results_simp <;> rfl

/-- After the first kernel: its output array is `layer1` of what it found; the host values it does not write are kept. -/
theorem W2_v25 (c : Dev nD) : W2 m ρ c (Proc.devRef .tc main_v25)
    = (layer1 (W1 m ρ c (Proc.devRef .tc main_v24)) (W1 m ρ c (Proc.devRef .tc main_arg0)) (W1 m ρ c (Proc.devRef .tc main_arg2))
        (W1 m ρ c (Proc.devRef .tc main_arg4)) (W1 m ρ c (Proc.devRef .tc main_arg3)) : S50000x256.Idx → Elt Ideal .f32) :=
  (W2_arr m ρ c 5).trans (Blocks.final0 (V1 m ρ) c)
theorem W2_v1 (c : Dev nD) : W2 m ρ c (Proc.devRef .tc main_v1) = W1 m ρ c (Proc.devRef .tc main_v1) := W2_of_ne m ρ c main_v1 (by decide)
theorem W2_v3 (c : Dev nD) : W2 m ρ c (Proc.devRef .tc main_v3) = W1 m ρ c (Proc.devRef .tc main_v3) := W2_of_ne m ρ c main_v3 (by decide)
theorem W2_v11 (c : Dev nD) : W2 m ρ c (Proc.devRef .tc main_v11) = W1 m ρ c (Proc.devRef .tc main_v11) := W2_of_ne m ρ c main_v11 (by decide)
theorem W2_arg5 (c : Dev nD) : W2 m ρ c (Proc.devRef .tc main_arg5) = W1 m ρ c (Proc.devRef .tc main_arg5) := W2_of_ne m ρ c main_arg5 (by decide)
theorem W2_arg6 (c : Dev nD) : W2 m ρ c (Proc.devRef .tc main_arg6) = W1 m ρ c (Proc.devRef .tc main_arg6) := W2_of_ne m ρ c main_arg6 (by decide)
theorem W2_arg7 (c : Dev nD) : W2 m ρ c (Proc.devRef .tc main_arg7) = W1 m ρ c (Proc.devRef .tc main_arg7) := W2_of_ne m ρ c main_arg7 (by decide)

set_option maxHeartbeats 2000000 in
/-- After the second stretch of host operations. -/
theorem W3_v38 (c : Dev nD) : W3 m ρ c (Proc.devRef .tc main_v38)
    = mean2 (W2 m ρ c (Proc.devRef .tc main_v25)) (W2 m ρ c (Proc.devRef .tc main_v1)) (W2 m ρ c (Proc.devRef .tc main_v3)) (W2 m ρ c (Proc.devRef .tc main_v11)) := by
  show StableHlo.after hostOps1 (W2 m ρ c) (Proc.devRef .tc main_v38) = _
  after_results_simp <;> rfl
theorem W3_v25 (c : Dev nD) : W3 m ρ c (Proc.devRef .tc main_v25) = W2 m ρ c (Proc.devRef .tc main_v25) := by
  show StableHlo.after hostOps1 (W2 m ρ c) (Proc.devRef .tc main_v25) = _
  after_results_simp <;> rfl
theorem W3_arg5 (c : Dev nD) : W3 m ρ c (Proc.devRef .tc main_arg5) = W2 m ρ c (Proc.devRef .tc main_arg5) := by
  show StableHlo.after hostOps1 (W2 m ρ c) (Proc.devRef .tc main_arg5) = _
  after_results_simp <;> rfl
theorem W3_arg6 (c : Dev nD) : W3 m ρ c (Proc.devRef .tc main_arg6) = W2 m ρ c (Proc.devRef .tc main_arg6) := by
  show StableHlo.after hostOps1 (W2 m ρ c) (Proc.devRef .tc main_arg6) = _
  after_results_simp <;> rfl
theorem W3_arg7 (c : Dev nD) : W3 m ρ c (Proc.devRef .tc main_arg7) = W2 m ρ c (Proc.devRef .tc main_arg7) := by
  show StableHlo.after hostOps1 (W2 m ρ c) (Proc.devRef .tc main_arg7) = _
  after_results_simp <;> rfl

/-- After the second kernel. -/
theorem W4_v39 (c : Dev nD) : W4 m ρ c (Proc.devRef .tc main_v39)
    = (layer2 (W3 m ρ c (Proc.devRef .tc main_v38)) (W3 m ρ c (Proc.devRef .tc main_v25)) (W3 m ρ c (Proc.devRef .tc main_arg5))
        (W3 m ρ c (Proc.devRef .tc main_arg7)) (W3 m ρ c (Proc.devRef .tc main_arg6)) : S50000x40.Idx → Elt Ideal .f32) :=
  (W4_arr m ρ c 5).trans (Blocks.final1 (V3 m ρ) c)

/-- THE RESULT: the last boundary's contents of the result buffer is `kernelOut` of the arguments. -/
theorem W4_out (c : Dev nD) : W4 m ρ c (Proc.devRef .tc main_v39)
    = kernelOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  rw [W4_v39, W3_v38, W3_v25, W3_arg5, W3_arg6, W3_arg7, W2_v1, W2_v3, W2_v11, W2_arg5, W2_arg6, W2_arg7, W2_v25,
    W1_v24, W1_v1, W1_v3, W1_v11, W1_arg0, W1_arg2, W1_arg3, W1_arg4, W1_arg5, W1_arg6, W1_arg7]
  rfl

/-- The kernel program's run: the result buffer ends at `kernelOut` of the arguments, the arguments unchanged. -/
theorem run : θ_run defs (onTc (τ := τ) (main (F := Ideal))) ⟨m, fun _ => 0, ρ⟩ (fun r => ∀ c : Dev nD,
      r.2.mem ((c.tc : Thread nD τ).loc main_v39) = kernelOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (W4_out m ρ c), (h c).2⟩) (run_out (F := Ideal) m ρ)

end Values

end Cert.KernelIdeal.Chain

end
-- ==== Proof.RefLayers.lean ====
/-
  The reference's two layers, read index by index over the extended reals, are `layer1` and `layer2` of their neighbour
  means: a `dot_general` against a transposed weight is the sum over the input features of row times row, the bias row is
  broadcast down the nodes, and the reference adds the bias between the two products where `lin` adds it last (addition of
  extended reals is commutative and associative). Its log-softmax takes the row maximum against minus infinity once more,
  which changes nothing, and its row sum starts from zero. The neighbour means and the first layer's output are carried as
  whole arrays and never opened.
-/
import proofs.«156003_j83769042141372_2_alg».proof.Proof.RefRead
import proofs.«156003_j83769042141372_2_alg».proof.Proof.Spec
import Idealize.ShloMosaic.Lib.Pipeline.Value
import Idealize.ShloMosaic.Lib.ValueIdx
import Idealize.ShloMosaic.PureOps.Ideal.Laws

noncomputable section

namespace Cert.ReferenceIdeal.Layers

open Idealize.ShloMosaic Idealize.ShloMosaic.ValueIdx Cert.Sage
open Cert.ReferenceIdeal.ReadP

/-- The reference's first layer is `layer1` of its neighbour mean: two products over the 128 input features against the
    transposed weights, the bias between them, clamped at zero. -/
theorem ref_layer1 (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S256, .f32⟩ : BufTy).Contents (Elt Ideal)) (x4 : (⟨Cert.ReferenceIdeal.S256x128, .f32⟩ : BufTy).Contents (Elt Ideal)) :
    val_main_v31 (F := Ideal) x0 x1 x2 x3 x4 = layer1 (val_main_v22 (F := Ideal) x0 x1) x0 x2 x4 x3 := by
  funext i
  obtain ⟨r, q, rfl⟩ : ∃ (r : Fin 50000) (q : Fin 256), i = ix2 r q := ⟨i 0, i 1, eq_ix2 i⟩
  rw [val_main_v31_apply, val_main_v30_apply, val_main_v27_apply, val_main_v24_apply, val_main_v29_apply, val_main_v26_apply,
    val_main_v25_apply, val_main_call0_v0_apply, val_main_call0_cst_apply]
  simp only [val_main_v23_apply, val_main_v28_apply]
  obtain ⟨M, hM⟩ : ∃ M, M = val_main_v22 (F := Ideal) x0 x1 := ⟨_, rfl⟩
  rw [← hM]
  have e1 : ∀ k : Fin 128, lidx_main_v24 (ix2 r q : Cert.ReferenceIdeal.S50000x256.Idx) k = ix2 r k := fun k => funext fun a => Fin.ext (by
    match a with
    | ⟨0, _⟩ => rfl
    | ⟨1, _⟩ => rfl)
  have e2 : ∀ k : Fin 128, idx_main_v23 (ridx_main_v24 (ix2 r q : Cert.ReferenceIdeal.S50000x256.Idx) k) = ix2 q k := fun k => funext fun a => Fin.ext (by
    match a with
    | ⟨0, _⟩ => rfl
    | ⟨1, _⟩ => rfl)
  have e3 : ∀ k : Fin 128, lidx_main_v29 (ix2 r q : Cert.ReferenceIdeal.S50000x256.Idx) k = ix2 r k := fun k => funext fun a => Fin.ext (by
    match a with
    | ⟨0, _⟩ => rfl
    | ⟨1, _⟩ => rfl)
  have e4 : ∀ k : Fin 128, idx_main_v28 (ridx_main_v29 (ix2 r q : Cert.ReferenceIdeal.S50000x256.Idx) k) = ix2 q k := fun k => funext fun a => Fin.ext (by
    match a with
    | ⟨0, _⟩ => rfl
    | ⟨1, _⟩ => rfl)
  have e5 : idx_main_v25 (idx_main_v26 (ix2 r q : Cert.ReferenceIdeal.S50000x256.Idx)) = ix1 q := funext fun a => Fin.ext (by
    match a with
    | ⟨0, _⟩ => rfl)
  simp only [e1, e2, e3, e4, e5, Ideal.maximumf_def, Ideal.addf_def, Ideal.ofBits_def]
  have hr : row (ix2 r q : (⟨2, ![50000, 256]⟩ : Shape).Idx) = r := rfl
  have hq : col (ix2 r q : (⟨2, ![50000, 256]⟩ : Shape).Idx) = q := rfl
  unfold layer1 lin
  simp only [hr, hq]
  rw [add_right_comm]

/-- The reference's logits at node `r`, class `j`. -/
theorem ref_logits (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S256, .f32⟩ : BufTy).Contents (Elt Ideal)) (x4 : (⟨Cert.ReferenceIdeal.S256x128, .f32⟩ : BufTy).Contents (Elt Ideal)) (x5 : (⟨Cert.ReferenceIdeal.S40x256, .f32⟩ : BufTy).Contents (Elt Ideal)) (x6 : (⟨Cert.ReferenceIdeal.S40, .f32⟩ : BufTy).Contents (Elt Ideal)) (x7 : (⟨Cert.ReferenceIdeal.S40x256, .f32⟩ : BufTy).Contents (Elt Ideal)) (r : Fin 50000) (j : Fin 40) :
    val_main_v62 (F := Ideal) x0 x1 x2 x3 x4 x5 x6 x7 (ix2 r j) = lin (val_main_v54 (F := Ideal) x0 x1 x2 x3 x4) (val_main_v31 (F := Ideal) x0 x1 x2 x3 x4) x5 x7 x6 r j := by
  rw [val_main_v62_apply, val_main_v59_apply, val_main_v56_apply, val_main_v58_apply, val_main_v57_apply, val_main_v61_apply]
  simp only [val_main_v55_apply, val_main_v60_apply]
  obtain ⟨M, hM⟩ : ∃ M, M = val_main_v54 (F := Ideal) x0 x1 x2 x3 x4 := ⟨_, rfl⟩
  obtain ⟨H, hH⟩ : ∃ H, H = val_main_v31 (F := Ideal) x0 x1 x2 x3 x4 := ⟨_, rfl⟩
  rw [← hM, ← hH]
  have e1 : ∀ k : Fin 256, lidx_main_v56 (ix2 r j : Cert.ReferenceIdeal.S50000x40.Idx) k = ix2 r k := fun k => funext fun a => Fin.ext (by
    match a with
    | ⟨0, _⟩ => rfl
    | ⟨1, _⟩ => rfl)
  have e2 : ∀ k : Fin 256, idx_main_v55 (ridx_main_v56 (ix2 r j : Cert.ReferenceIdeal.S50000x40.Idx) k) = ix2 j k := fun k => funext fun a => Fin.ext (by
    match a with
    | ⟨0, _⟩ => rfl
    | ⟨1, _⟩ => rfl)
  have e3 : ∀ k : Fin 256, lidx_main_v61 (ix2 r j : Cert.ReferenceIdeal.S50000x40.Idx) k = ix2 r k := fun k => funext fun a => Fin.ext (by
    match a with
    | ⟨0, _⟩ => rfl
    | ⟨1, _⟩ => rfl)
  have e4 : ∀ k : Fin 256, idx_main_v60 (ridx_main_v61 (ix2 r j : Cert.ReferenceIdeal.S50000x40.Idx) k) = ix2 j k := fun k => funext fun a => Fin.ext (by
    match a with
    | ⟨0, _⟩ => rfl
    | ⟨1, _⟩ => rfl)
  have e5 : idx_main_v57 (idx_main_v58 (ix2 r j : Cert.ReferenceIdeal.S50000x40.Idx)) = ix1 j := funext fun a => Fin.ext (by
    match a with
    | ⟨0, _⟩ => rfl)
  simp only [e1, e2, e3, e4, e5, Ideal.addf_def]
  unfold lin
  rw [add_right_comm]

/-- The reference's row maximum: folded from minus infinity over the 40 classes, then taken against minus infinity once more. -/
theorem ref_rowmax (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S256, .f32⟩ : BufTy).Contents (Elt Ideal)) (x4 : (⟨Cert.ReferenceIdeal.S256x128, .f32⟩ : BufTy).Contents (Elt Ideal)) (x5 : (⟨Cert.ReferenceIdeal.S40x256, .f32⟩ : BufTy).Contents (Elt Ideal)) (x6 : (⟨Cert.ReferenceIdeal.S40, .f32⟩ : BufTy).Contents (Elt Ideal)) (x7 : (⟨Cert.ReferenceIdeal.S40x256, .f32⟩ : BufTy).Contents (Elt Ideal)) (r : Fin 50000) :
    val_main_call1_v2 (F := Ideal) x0 x1 x2 x3 x4 x5 x6 x7 (ix1 r) = rowMax (fun j => val_main_v62 (F := Ideal) x0 x1 x2 x3 x4 x5 x6 x7 (ix2 r j)) := by
  rw [val_main_call1_v2_apply, val_main_call1_v1_apply, val_main_call1_cst_0_apply]
  unfold val_main_call1_v0
  obtain ⟨Z, hZ⟩ : ∃ Z, Z = val_main_v62 (F := Ideal) x0 x1 x2 x3 x4 x5 x6 x7 := ⟨_, rfl⟩
  rw [← hZ]
  have hfold := Host.reduce_eq_fold_single (α := Ideal .f32) (FloatOps.maximumf (F := Ideal) (φ := .f32)) Z (val_main_call1_cst (F := Ideal))
    Cert.ReferenceIdeal.Gen.reducesTo_S50000x40_S50000_d1 (by decide : Cert.ReferenceIdeal.S50000x40.Reduces [1] Cert.ReferenceIdeal.S50000) Cert.ReferenceIdeal.Gen.h_S_ (ix1 r)
  rw [hfold]
  refine Eq.trans ?_ (max_ninf_rowMax _)
  unfold rowMax
  have hf : (Z ∘ Shape.Reduces.lift (by decide : Cert.ReferenceIdeal.S50000x40.Reduces [1] Cert.ReferenceIdeal.S50000) (ix1 r)) = fun j : Fin 40 => Z (ix2 r j) :=
    funext fun k => congrArg Z (funext fun a => Fin.ext (by
    match a with
    | ⟨0, _⟩ => rfl
    | ⟨1, _⟩ => rfl))
  rw [hf]
  rfl

/-- The reference's log-softmax at node `r`, class `q`, of its row of logits. -/
theorem ref_lsm (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S256, .f32⟩ : BufTy).Contents (Elt Ideal)) (x4 : (⟨Cert.ReferenceIdeal.S256x128, .f32⟩ : BufTy).Contents (Elt Ideal)) (x5 : (⟨Cert.ReferenceIdeal.S40x256, .f32⟩ : BufTy).Contents (Elt Ideal)) (x6 : (⟨Cert.ReferenceIdeal.S40, .f32⟩ : BufTy).Contents (Elt Ideal)) (x7 : (⟨Cert.ReferenceIdeal.S40x256, .f32⟩ : BufTy).Contents (Elt Ideal)) (r : Fin 50000) (q : Fin 40) :
    val_main_v63 (F := Ideal) x0 x1 x2 x3 x4 x5 x6 x7 (ix2 r q) = logSoftmax (fun j => val_main_v62 (F := Ideal) x0 x1 x2 x3 x4 x5 x6 x7 (ix2 r j)) q := by
  have hm := ref_rowmax x0 x1 x2 x3 x4 x5 x6 x7 r
  have i1 : idx_main_call1_v3 (idx_main_call1_v4 (ix2 r q : Cert.ReferenceIdeal.S50000x40.Idx)) = ix1 r := funext fun a => Fin.ext (by
    match a with
    | ⟨0, _⟩ => rfl)
  have i2 : idx_main_call1_v8 (idx_main_call1_v10 (ix2 r q : Cert.ReferenceIdeal.S50000x40.Idx)) = ix1 r := funext fun a => Fin.ext (by
    match a with
    | ⟨0, _⟩ => rfl)
  have i3 : ∀ k : Fin 40, idx_main_call1_v7 (ix1 r : Cert.ReferenceIdeal.S50000.Idx) k = ix2 r k := fun k => funext fun a => Fin.ext (by
    match a with
    | ⟨0, _⟩ => rfl
    | ⟨1, _⟩ => rfl)
  have i4 : ∀ k : Fin 40, idx_main_call1_v3 (idx_main_call1_v4 (ix2 r k : Cert.ReferenceIdeal.S50000x40.Idx)) = ix1 r := fun k => funext fun a => Fin.ext (by
    match a with
    | ⟨0, _⟩ => rfl)
  rw [val_main_v63_apply, val_main_call1_v5_apply, val_main_call1_v4_apply, val_main_call1_v3_apply, val_main_call1_v10_apply,
    val_main_call1_v9_apply, val_main_call1_v8_apply, val_main_call1_v7_apply, i1, i2, hm]
  have hsum : ∀ k : Fin 40, val_main_call1_v6 (F := Ideal) x0 x1 x2 x3 x4 x5 x6 x7 (idx_main_call1_v7 (ix1 r : Cert.ReferenceIdeal.S50000.Idx) k)
      = Ideal.exp (val_main_v62 (F := Ideal) x0 x1 x2 x3 x4 x5 x6 x7 (ix2 r k) - rowMax (fun j => val_main_v62 (F := Ideal) x0 x1 x2 x3 x4 x5 x6 x7 (ix2 r j))) := by
    intro k
    rw [i3 k, val_main_call1_v6_apply, val_main_call1_v5_apply, val_main_call1_v4_apply, val_main_call1_v3_apply, i4 k, hm]
    simp only [Ideal.hostUnary_exp_def, Ideal.subf_def]
  rw [Finset.sum_congr rfl (fun k _ => hsum k), val_main_call1_cst_1_apply]
  obtain ⟨Z, hZ⟩ : ∃ Z, Z = val_main_v62 (F := Ideal) x0 x1 x2 x3 x4 x5 x6 x7 := ⟨_, rfl⟩
  rw [← hZ]
  simp only [Ideal.subf_def, Ideal.hostUnary_log_def, Ideal.ofBits_def, Ideal.ofBits_zero_f32, zero_add]
  rfl

/-- The reference's second layer is `layer2` of its neighbour mean and the first layer's output. -/
theorem ref_layer2 (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S256, .f32⟩ : BufTy).Contents (Elt Ideal)) (x4 : (⟨Cert.ReferenceIdeal.S256x128, .f32⟩ : BufTy).Contents (Elt Ideal)) (x5 : (⟨Cert.ReferenceIdeal.S40x256, .f32⟩ : BufTy).Contents (Elt Ideal)) (x6 : (⟨Cert.ReferenceIdeal.S40, .f32⟩ : BufTy).Contents (Elt Ideal)) (x7 : (⟨Cert.ReferenceIdeal.S40x256, .f32⟩ : BufTy).Contents (Elt Ideal)) :
    val_main_v63 (F := Ideal) x0 x1 x2 x3 x4 x5 x6 x7 = layer2 (val_main_v54 (F := Ideal) x0 x1 x2 x3 x4) (val_main_v31 (F := Ideal) x0 x1 x2 x3 x4) x5 x7 x6 := by
  funext i
  obtain ⟨r, q, rfl⟩ : ∃ (r : Fin 50000) (q : Fin 40), i = ix2 r q := ⟨i 0, i 1, eq_ix2 i⟩
  refine (ref_lsm x0 x1 x2 x3 x4 x5 x6 x7 r q).trans ?_
  simp only [ref_logits]
  obtain ⟨M, hM⟩ : ∃ M, M = val_main_v54 (F := Ideal) x0 x1 x2 x3 x4 := ⟨_, rfl⟩
  obtain ⟨H, hH⟩ : ∃ H, H = val_main_v31 (F := Ideal) x0 x1 x2 x3 x4 := ⟨_, rfl⟩
  rw [← hM, ← hH]
  rfl

end Cert.ReferenceIdeal.Layers

end
-- ==== Proof.Bridge.lean ====
/-
  The reference computes the kernel program's function.
  The reference divides each neighbour sum by `max deg 1` where the kernel program multiplies by `1 / max deg 1`: equal,
  since `max deg 1` is not zero. It adds a layer's bias between the two products where the kernel adds it last: equal,
  since addition of extended reals is commutative and associative. It takes the row maximum once more against minus infinity,
  which changes nothing. Everything else — the edge list's split, the gathers, the scattered sums — is the same operations
  on the same arrays on both sides and is never opened.
-/
import proofs.«156003_j83769042141372_2_alg».proof.Proof.Chain
import proofs.«156003_j83769042141372_2_alg».proof.Proof.RefRead
import proofs.«156003_j83769042141372_2_alg».proof.Proof.Spec
import proofs.«156003_j83769042141372_2_alg».proof.Proof.RefLayers
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx Cert.Sage
open Cert.KernelIdeal.Chain Cert.ReferenceIdeal.ReadP

/-! ## The shared host values: one term on both sides -/

theorem agg1_eq (x0 : (⟨Cert.ReferenceIdeal.S50000x128, .f32⟩ : BufTy).Contents (Elt Ideal)) (x1 : (⟨Cert.ReferenceIdeal.S2x800000, .i32⟩ : BufTy).Contents (Elt Ideal)) :
    agg1 (F := Ideal) x0 (src x1) (dst x1) = val_main_v13 (F := Ideal) x0 x1 := rfl
theorem deg_eq (x1 : (⟨Cert.ReferenceIdeal.S2x800000, .i32⟩ : BufTy).Contents (Elt Ideal)) : deg (F := Ideal) (dst x1) = val_main_v17 (F := Ideal) x1 := rfl
theorem deg_eq' (x1 : (⟨Cert.ReferenceIdeal.S2x800000, .i32⟩ : BufTy).Contents (Elt Ideal)) : deg (F := Ideal) (dst x1) = val_main_v49 (F := Ideal) x1 := rfl
theorem agg2_eq (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S256, .f32⟩ : BufTy).Contents (Elt Ideal)) (x4 : (⟨Cert.ReferenceIdeal.S256x128, .f32⟩ : BufTy).Contents (Elt Ideal)) :
    agg2 (F := Ideal) (val_main_v31 (F := Ideal) x0 x1 x2 x3 x4) (src x1) (dst x1) = val_main_v45 (F := Ideal) x0 x1 x2 x3 x4 := rfl

/-! ## Broadcasts read at an index -/

/-- A scalar constant broadcast to a one-axis array reads the constant's value everywhere. -/
theorem bcast0_apply {n : ℕ} (w : BitVec 32) (h : (⟨0, ![]⟩ : Shape).BroadcastsInDim ⟨1, ![n]⟩ ![]) (i : (⟨1, ![n]⟩ : Shape).Idx) :
    broadcastInDim ⟨1, ![n]⟩ ![] h (constant (F := Ideal) ⟨0, ![]⟩ .f32 w) i = Ideal.ofBits .f32 w := by
  rw [broadcastInDim_apply _ h _ i ix0 (fun a => a.elim0)]
  rfl

/-- A per-node value kept as a column and broadcast along the features reads, anywhere in row `r`, the node's value. -/
theorem bcast2_apply {n q : ℕ} {α : Type} (v : (⟨1, ![n]⟩ : Shape).Idx → α) (h1 : (⟨1, ![n]⟩ : Shape).BroadcastsInDim ⟨2, ![n, 1]⟩ ![0])
    (h2 : (⟨2, ![n, 1]⟩ : Shape).BroadcastsInDim ⟨2, ![n, q]⟩ ![0, 1]) (r : Fin n) (k : Fin q) :
    broadcastInDim ⟨2, ![n, q]⟩ ![0, 1] h2 (broadcastInDim ⟨2, ![n, 1]⟩ ![0] h1 v) (ix2 r k) = v (ix1 r) := by
  rw [broadcastInDim_apply _ h2 _ (ix2 r k) (ix2 r (0 : Fin 1)) (fun a => match a with
    | ⟨0, _⟩ => by show r.val = if n = 1 then 0 else r.val; split <;> [(have := r.isLt; omega); rfl]
    | ⟨1, _⟩ => by show 0 = if (1 : ℕ) = 1 then 0 else k.val; rw [if_pos rfl])]
  rw [broadcastInDim_apply _ h1 _ (ix2 r (0 : Fin 1)) (ix1 r) (fun a => match a with
    | ⟨0, _⟩ => by show r.val = if n = 1 then 0 else r.val; split <;> [(have := r.isLt; omega); rfl])]

/-- The host quotient at an index. -/
theorem hostDivf_apply {s : Shape} (a b : FVec Ideal s .f32) (i : s.Idx) : Host.divf a b i = Ideal.div (a i) (b i) := rfl

/-- The reciprocal at a node. -/
theorem recip_apply (d : (⟨Cert.ReferenceIdeal.S800000, .i32⟩ : BufTy).Contents (Elt Ideal)) (r : Fin 50000) :
    recip (F := Ideal) d (ix1 r) = Ideal.div (Ideal.ofBits .f32 0x3F800000#32) (max (deg (F := Ideal) d (ix1 r)) (Ideal.ofBits .f32 0x3F800000#32)) := by
  unfold recip
  rw [hostDivf_apply, maximumf_apply, bcast0_apply]

/-! ## The neighbour means -/

/-- Dividing a node's neighbour sum by `max deg 1` is multiplying it by the reciprocal. -/
theorem ref_mean1 (x0 : (⟨Cert.ReferenceIdeal.S50000x128, .f32⟩ : BufTy).Contents (Elt Ideal)) (x1 : (⟨Cert.ReferenceIdeal.S2x800000, .i32⟩ : BufTy).Contents (Elt Ideal)) :
    val_main_v22 (F := Ideal) x0 x1 = mean1 (F := Ideal) x0 (src x1) (dst x1) (recip (dst x1)) := by
  funext i
  obtain ⟨r, k, rfl⟩ : ∃ (r : Fin 50000) (k : Fin 128), i = ix2 r k := ⟨i 0, i 1, eq_ix2 i⟩
  rw [val_main_v22_apply, val_main_v21_apply, val_main_v20_apply, val_main_v19_apply, val_main_v18_apply, val_main_cst_3_apply]
  have hi : idx_main_v20 (idx_main_v21 (ix2 r k : Cert.ReferenceIdeal.S50000x128.Idx)) = ix1 r := funext fun a => Fin.ext (by
    match a with
    | ⟨0, _⟩ => rfl)
  rw [hi, ← deg_eq, ← agg1_eq]
  unfold mean1
  rw [mulf_apply, bcast2_apply, recip_apply]
  obtain ⟨A, hA⟩ : ∃ A, A = agg1 (F := Ideal) x0 (src x1) (dst x1) (ix2 r k) := ⟨_, rfl⟩
  obtain ⟨D, hD⟩ : ∃ D, D = deg (F := Ideal) (dst x1) (ix1 r) := ⟨_, rfl⟩
  rw [← hA, ← hD]
  simp only [Ideal.hostDivf_def, Ideal.maximumf_def, Ideal.ofBits_def]
  exact (mul_recip_eq_div A D _ one32).symm

theorem ref_mean2 (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S256, .f32⟩ : BufTy).Contents (Elt Ideal)) (x4 : (⟨Cert.ReferenceIdeal.S256x128, .f32⟩ : BufTy).Contents (Elt Ideal)) :
    val_main_v54 (F := Ideal) x0 x1 x2 x3 x4 = mean2 (F := Ideal) (val_main_v31 (F := Ideal) x0 x1 x2 x3 x4) (src x1) (dst x1) (recip (dst x1)) := by
  funext i
  obtain ⟨r, k, rfl⟩ : ∃ (r : Fin 50000) (k : Fin 256), i = ix2 r k := ⟨i 0, i 1, eq_ix2 i⟩
  rw [val_main_v54_apply, val_main_v53_apply, val_main_v52_apply, val_main_v51_apply, val_main_v50_apply, val_main_cst_9_apply]
  have hi : idx_main_v52 (idx_main_v53 (ix2 r k : Cert.ReferenceIdeal.S50000x256.Idx)) = ix1 r := funext fun a => Fin.ext (by
    match a with
    | ⟨0, _⟩ => rfl)
  rw [hi, ← deg_eq', ← agg2_eq]
  unfold mean2
  rw [mulf_apply, bcast2_apply, recip_apply]
  obtain ⟨A, hA⟩ : ∃ A, A = agg2 (F := Ideal) (val_main_v31 (F := Ideal) x0 x1 x2 x3 x4) (src x1) (dst x1) (ix2 r k) := ⟨_, rfl⟩
  obtain ⟨D, hD⟩ : ∃ D, D = deg (F := Ideal) (dst x1) (ix1 r) := ⟨_, rfl⟩
  rw [← hA, ← hD]
  simp only [Ideal.hostDivf_def, Ideal.maximumf_def, Ideal.ofBits_def]
  exact (mul_recip_eq_div A D _ one32).symm

/-! ## The whole -/

/-- The reference's result is the kernel program's function of the same arguments. -/
theorem ref_eq (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S256x128, .f32⟩ : BufTy).Contents (Elt Ideal)) (x3 : (⟨Cert.ReferenceIdeal.S256, .f32⟩ : BufTy).Contents (Elt Ideal)) (x4 : (⟨Cert.ReferenceIdeal.S256x128, .f32⟩ : BufTy).Contents (Elt Ideal)) (x5 : (⟨Cert.ReferenceIdeal.S40x256, .f32⟩ : BufTy).Contents (Elt Ideal)) (x6 : (⟨Cert.ReferenceIdeal.S40, .f32⟩ : BufTy).Contents (Elt Ideal)) (x7 : (⟨Cert.ReferenceIdeal.S40x256, .f32⟩ : BufTy).Contents (Elt Ideal)) :
    val_main_v63 (F := Ideal) x0 x1 x2 x3 x4 x5 x6 x7 = kernelOut x0 x1 x2 x3 x4 x5 x6 x7 := by
  rw [Cert.ReferenceIdeal.Layers.ref_layer2, ref_mean2, Cert.ReferenceIdeal.Layers.ref_layer1, ref_mean1]
  rfl

end Cert.Bridge

end
-- ==== Proof.lean ====
/-
  A two-layer mean-aggregating graph network (neighbour mean, two linear maps and a bias per layer, a clamp at zero after
  the first layer, a row-wise log-softmax after the second) as two Pallas kernels among host gathers and scattered sums,
  against its plain jnp reference, over the extended reals.

  The three frames: the two kernel programs' are the generated frame certificates; the reference has no kernel, and its frame
  is its run with the result forgotten. The idealization rewrote nothing, so there is nothing to preserve. The value claim:
  the kernel program's result array is `kernelOut` of the arguments (Chain: each kernel's 25 written blocks tile its output
  with one whole-array function of what the region found, Blocks; a block entry is the body's value at that entry, Pay), the
  reference's is its last stage's value of the same arguments (RefRun), and the two are one function (Bridge): multiplying
  by `1 / max deg 1` is dividing by `max deg 1`, which is never zero; the bias may be added between the two products or
  after them; a maximum folded from minus infinity is not changed by minus infinity. No finiteness of the inputs is used.
-/
import proofs.«156003_j83769042141372_2_alg».proof.Defs
import proofs.«156003_j83769042141372_2_alg».proof.Proof.Gen.Kernel
import proofs.«156003_j83769042141372_2_alg».proof.Proof.Gen.Kernel.Skeleton
import proofs.«156003_j83769042141372_2_alg».proof.Proof.Gen.Kernel.Launch
import proofs.«156003_j83769042141372_2_alg».proof.Proof.Gen.Kernel.Points
import proofs.«156003_j83769042141372_2_alg».proof.Proof.Gen.Kernel.Frame
import proofs.«156003_j83769042141372_2_alg».proof.Proof.Gen.KernelIdeal
import proofs.«156003_j83769042141372_2_alg».proof.Proof.Gen.KernelIdeal.Skeleton
import proofs.«156003_j83769042141372_2_alg».proof.Proof.Gen.KernelIdeal.Launch
import proofs.«156003_j83769042141372_2_alg».proof.Proof.Gen.KernelIdeal.Points
import proofs.«156003_j83769042141372_2_alg».proof.Proof.Gen.KernelIdeal.Frame
import proofs.«156003_j83769042141372_2_alg».proof.Proof.Gen.ReferenceIdeal
import proofs.«156003_j83769042141372_2_alg».proof.Proof.Gen.Pre_finite_inputs
import proofs.«156003_j83769042141372_2_alg».proof.Proof.RefRun
import proofs.«156003_j83769042141372_2_alg».proof.Proof.Chain
import proofs.«156003_j83769042141372_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both programs end with the result at `kernelOut` of the arguments: the kernel
    program by its run, the reference because its last stage's value is that function. -/
theorem algebraic : Cert.algebraic_KernelIdeal_ReferenceIdeal := by
  intro m ρ m' ρ' _ hagree
  refine ⟨fun c => Cert.KernelIdeal.Chain.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.Chain.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7⟩ := hagree c
  rw [a0, a1, a2, a3, a4, a5, a6, a7]
  exact Cert.Bridge.ref_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
